-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x256 : Shape := ⟨3, ![4096, 49, 256]⟩
abbrev S169x8 : Shape := ⟨2, ![169, 8]⟩
abbrev S64x49x49 : Shape := ⟨3, ![64, 49, 49]⟩
abbrev S49x49 : Shape := ⟨2, ![49, 49]⟩
abbrev S_ : Shape := ⟨0, ![]⟩

class Facts : Prop where
  bcast_S_S4096x49x256 : S_.BroadcastsInDim S4096x49x256 (![] : Fin 0 → Fin S4096x49x256.rank)
  reducesTo_S4096x49x256_S_d0_1_2 : S4096x49x256.ReducesTo [0, 1, 2] S_
  h_S_ : 0 < S_.numel
  bcast_S_S169x8 : S_.BroadcastsInDim S169x8 (![] : Fin 0 → Fin S169x8.rank)
  reducesTo_S169x8_S_d0_1 : S169x8.ReducesTo [0, 1] S_
  bcast_S_S64x49x49 : S_.BroadcastsInDim S64x49x49 (![] : Fin 0 → Fin S64x49x49.rank)
  reducesTo_S64x49x49_S_d0_1_2 : S64x49x49.ReducesTo [0, 1, 2] S_

variable [Facts]

def fn {F : FTy → Type} [FloatOps F] (main_arg0 : FVec F S4096x49x256 .f32) (main_arg1 : FVec F S169x8 .f32) (main_arg2 : FVec F S64x49x49 .f32) (main_arg3 : IVec S49x49 32) : IVec S_ 1 :=
  let main_v0 : FVec F S4096x49x256 .f32 := Host.absf main_arg0
  let main_cst : FVec F S_ .f32 := constant S_ .f32 0x7F800000#32
  let main_v1 : FVec F S4096x49x256 .f32 := broadcastInDim S4096x49x256 ![] bcast_S_S4096x49x256 main_cst
  let main_v2 : IVec S4096x49x256 1 := cmpf .olt main_v0 main_v1
  let main_c : IVec S_ 1 := constantI S_ 1 1#1
  let main_v3 : IVec S_ 1 := (fun x v => Host.reduce IntOp.andi x v reducesTo_S4096x49x256_S_d0_1_2 h_S_) main_v2 main_c
  let main_v4 : FVec F S169x8 .f32 := Host.absf main_arg1
  let main_cst_0 : FVec F S_ .f32 := constant S_ .f32 0x7F800000#32
  let main_v5 : FVec F S169x8 .f32 := broadcastInDim S169x8 ![] bcast_S_S169x8 main_cst_0
  let main_v6 : IVec S169x8 1 := cmpf .olt main_v4 main_v5
  let main_c_1 : IVec S_ 1 := constantI S_ 1 1#1
  let main_v7 : IVec S_ 1 := (fun x v => Host.reduce IntOp.andi x v reducesTo_S169x8_S_d0_1 h_S_) main_v6 main_c_1
  let main_v8 : IVec S_ 1 := andi main_v3 main_v7
  let main_v9 : FVec F S64x49x49 .f32 := Host.absf main_arg2
  let main_cst_2 : FVec F S_ .f32 := constant S_ .f32 0x7F800000#32
  let main_v10 : FVec F S64x49x49 .f32 := broadcastInDim S64x49x49 ![] bcast_S_S64x49x49 main_cst_2
  let main_v11 : IVec S64x49x49 1 := cmpf .olt main_v9 main_v10
  let main_c_3 : IVec S_ 1 := constantI S_ 1 1#1
  let main_v12 : IVec S_ 1 := (fun x v => Host.reduce IntOp.andi x v reducesTo_S64x49x49_S_d0_1_2 h_S_) main_v11 main_c_3
  let main_v13 : IVec S_ 1 := andi main_v8 main_v12
  main_v13
-- ==== Kernel.lean ====
abbrev S4096x49x256 : Shape := ⟨3, ![4096, 49, 256]⟩
abbrev S169x8 : Shape := ⟨2, ![169, 8]⟩
abbrev S64x49x49 : Shape := ⟨3, ![64, 49, 49]⟩
abbrev S49x49 : Shape := ⟨2, ![49, 49]⟩
abbrev S2401 : Shape := ⟨1, ![2401]⟩
abbrev S_ : Shape := ⟨0, ![]⟩
abbrev S2401x1 : Shape := ⟨2, ![2401, 1]⟩
abbrev S2401x8 : Shape := ⟨2, ![2401, 8]⟩
abbrev S49x49x8 : Shape := ⟨3, ![49, 49, 8]⟩
abbrev S8x49x49 : Shape := ⟨3, ![8, 49, 49]⟩
abbrev S32x49x256 : Shape := ⟨3, ![32, 49, 256]⟩
abbrev S32x49x49 : Shape := ⟨3, ![32, 49, 49]⟩
abbrev S32x49x8x32 : Shape := ⟨4, ![32, 49, 8, 32]⟩
abbrev S32x49x1x32 : Shape := ⟨4, ![32, 49, 1, 32]⟩
abbrev S32x49x32 : Shape := ⟨3, ![32, 49, 32]⟩
abbrev S1x49x49 : Shape := ⟨3, ![1, 49, 49]⟩
abbrev S32x49 : Shape := ⟨2, ![32, 49]⟩
abbrev S32x49x1 : Shape := ⟨3, ![32, 49, 1]⟩

abbrev nBuf : Space → Nat
  | .hbm => 17
  | .vmem => 7
  | .smem => 0
  | _ => 0

abbrev bufTy : (tb : Table) → Fin (tcTables nBuf tb) → BufTy
  | .hbm, ⟨0, _⟩ => ⟨S4096x49x256, .f32⟩
  | .hbm, ⟨1, _⟩ => ⟨S169x8, .f32⟩
  | .hbm, ⟨2, _⟩ => ⟨S64x49x49, .f32⟩
  | .hbm, ⟨3, _⟩ => ⟨S49x49, .i32⟩
  | .hbm, ⟨4, _⟩ => ⟨S2401, .i32⟩
  | .hbm, ⟨5, _⟩ => ⟨S_, .i32⟩
  | .hbm, ⟨6, _⟩ => ⟨S2401, .i32⟩
  | .hbm, ⟨7, _⟩ => ⟨S2401, .i1⟩
  | .hbm, ⟨8, _⟩ => ⟨S_, .i32⟩
  | .hbm, ⟨9, _⟩ => ⟨S2401, .i32⟩
  | .hbm, ⟨10, _⟩ => ⟨S2401, .i32⟩
  | .hbm, ⟨11, _⟩ => ⟨S2401, .i32⟩
  | .hbm, ⟨12, _⟩ => ⟨S2401x1, .i32⟩
  | .hbm, ⟨13, _⟩ => ⟨S2401x8, .f32⟩
  | .hbm, ⟨14, _⟩ => ⟨S49x49x8, .f32⟩
  | .hbm, ⟨15, _⟩ => ⟨S8x49x49, .f32⟩
  | .hbm, ⟨16, _⟩ => ⟨S4096x49x256, .f32⟩
  | .local _ .vmem, ⟨0, _⟩ => ⟨S32x49x256, .f32⟩
  | .local _ .vmem, ⟨1, _⟩ => ⟨S32x49x256, .f32⟩
  | .local _ .vmem, ⟨2, _⟩ => ⟨S8x49x49, .f32⟩
  | .local _ .vmem, ⟨3, _⟩ => ⟨S32x49x49, .f32⟩
  | .local _ .vmem, ⟨4, _⟩ => ⟨S32x49x49, .f32⟩
  | .local _ .vmem, ⟨5, _⟩ => ⟨S32x49x256, .f32⟩
  | .local _ .vmem, ⟨6, _⟩ => ⟨S32x49x256, .f32⟩
  | _, _ => ⟨S4096x49x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x49x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x49x49 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x49x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x49x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x8_S49x49x8 : S2401x8.ShapeCasts S49x49x8
  transposes_S49x49x8_S8x49x49_2_0_1 : S49x49x8.Transposes [2, 0, 1] S8x49x49
  inb_S32x49x256_S32x49x256_0_0_0 : ∀ a, (![0, 0, 0] : Fin 3 → Nat) a + S32x49x256.size a ≤ S32x49x256.size a
  h_S32x49x256 : 0 < S32x49x256.numel
  shapeCasts_S32x49x256_S32x49x8x32 : S32x49x256.ShapeCasts S32x49x8x32
  inb_S32x49x49_S32x49x49_0_0_0 : ∀ a, (![0, 0, 0] : Fin 3 → Nat) a + S32x49x49.size a ≤ S32x49x49.size a
  h_S32x49x49 : 0 < S32x49x49.numel
  slices_S32x49x8x32_o0_0_0_0_S32x49x1x32 : S32x49x8x32.Slices ![0, 0, 0, 0] S32x49x1x32
  shapeCasts_S32x49x1x32_S32x49x32 : S32x49x1x32.ShapeCasts S32x49x32
  bitsLt_bf16_f32 : FTy.bits .bf16 < FTy.bits .f32
  inb_S8x49x49_S1x49x49_0_0_0 : ∀ a, (![0, 0, 0] : Fin 3 → Nat) a + S1x49x49.size a ≤ S8x49x49.size a
  h_S1x49x49 : 0 < S1x49x49.numel
  shapeCasts_S1x49x49_S49x49 : S1x49x49.ShapeCasts S49x49
  shapeCasts_S49x49_S1x49x49 : S49x49.ShapeCasts S1x49x49
  broadcasts_S1x49x49_S32x49x49 : S1x49x49.Broadcasts S32x49x49
  reduces_S32x49x49_S32x49 : S32x49x49.Reduces [2] S32x49
  shapeCasts_S32x49_S32x49x1 : S32x49.ShapeCasts S32x49x1
  broadcasts_S32x49x1_S32x49x49 : S32x49x1.Broadcasts S32x49x49
  inb_S32x49x256_S32x49x32_0_0_0 : ∀ a, (![0, 0, 0] : Fin 3 → Nat) a + S32x49x32.size a ≤ S32x49x256.size a
  h_S32x49x32 : 0 < S32x49x32.numel
  slices_S32x49x8x32_o0_0_1_0_S32x49x1x32 : S32x49x8x32.Slices ![0, 0, 1, 0] S32x49x1x32
  inb_S8x49x49_S1x49x49_1_0_0 : ∀ a, (![1, 0, 0] : Fin 3 → Nat) a + S1x49x49.size a ≤ S8x49x49.size a
  inb_S32x49x256_S32x49x32_0_0_32 : ∀ a, (![0, 0, 32] : Fin 3 → Nat) a + S32x49x32.size a ≤ S32x49x256.size a
  slices_S32x49x8x32_o0_0_2_0_S32x49x1x32 : S32x49x8x32.Slices ![0, 0, 2, 0] S32x49x1x32
  inb_S8x49x49_S1x49x49_2_0_0 : ∀ a, (![2, 0, 0] : Fin 3 → Nat) a + S1x49x49.size a ≤ S8x49x49.size a
  inb_S32x49x256_S32x49x32_0_0_64 : ∀ a, (![0, 0, 64] : Fin 3 → Nat) a + S32x49x32.size a ≤ S32x49x256.size a
  slices_S32x49x8x32_o0_0_3_0_S32x49x1x32 : S32x49x8x32.Slices ![0, 0, 3, 0] S32x49x1x32
  inb_S8x49x49_S1x49x49_3_0_0 : ∀ a, (![3, 0, 0] : Fin 3 → Nat) a + S1x49x49.size a ≤ S8x49x49.size a
  inb_S32x49x256_S32x49x32_0_0_96 : ∀ a, (![0, 0, 96] : Fin 3 → Nat) a + S32x49x32.size a ≤ S32x49x256.size a
  slices_S32x49x8x32_o0_0_4_0_S32x49x1x32 : S32x49x8x32.Slices ![0, 0, 4, 0] S32x49x1x32
  inb_S8x49x49_S1x49x49_4_0_0 : ∀ a, (![4, 0, 0] : Fin 3 → Nat) a + S1x49x49.size a ≤ S8x49x49.size a
  inb_S32x49x256_S32x49x32_0_0_128 : ∀ a, (![0, 0, 128] : Fin 3 → Nat) a + S32x49x32.size a ≤ S32x49x256.size a
  slices_S32x49x8x32_o0_0_5_0_S32x49x1x32 : S32x49x8x32.Slices ![0, 0, 5, 0] S32x49x1x32
  inb_S8x49x49_S1x49x49_5_0_0 : ∀ a, (![5, 0, 0] : Fin 3 → Nat) a + S1x49x49.size a ≤ S8x49x49.size a
  inb_S32x49x256_S32x49x32_0_0_160 : ∀ a, (![0, 0, 160] : Fin 3 → Nat) a + S32x49x32.size a ≤ S32x49x256.size a
  slices_S32x49x8x32_o0_0_6_0_S32x49x1x32 : S32x49x8x32.Slices ![0, 0, 6, 0] S32x49x1x32
  inb_S8x49x49_S1x49x49_6_0_0 : ∀ a, (![6, 0, 0] : Fin 3 → Nat) a + S1x49x49.size a ≤ S8x49x49.size a
  inb_S32x49x256_S32x49x32_0_0_192 : ∀ a, (![0, 0, 192] : Fin 3 → Nat) a + S32x49x32.size a ≤ S32x49x256.size a
  slices_S32x49x8x32_o0_0_7_0_S32x49x1x32 : S32x49x8x32.Slices ![0, 0, 7, 0] S32x49x1x32
  inb_S8x49x49_S1x49x49_7_0_0 : ∀ a, (![7, 0, 0] : Fin 3 → Nat) a + S1x49x49.size a ≤ S8x49x49.size a
  inb_S32x49x256_S32x49x32_0_0_224 : ∀ a, (![0, 0, 224] : Fin 3 → Nat) a + S32x49x32.size a ≤ S32x49x256.size a
  gather_S169x8_S2401x1_S2401x8_1_0_n_n_0_1_18_wf : GatherDims.WF S169x8 S2401x1 S2401x8 [1] [0] [] [0] [] 1 ![1, 8]
  dot_S32x49x32_S32x49x32_S32x49x49_2_2_1_1_0_0_wf : DotDims.WF S32x49x32 S32x49x32 S32x49x49 [2] [2] [1] [1] [0] [0]
  dot_S32x49x49_S32x49x32_S32x49x32_2_1_1_2_0_0_wf : DotDims.WF S32x49x49 S32x49x32 S32x49x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x49x256.size a ≤ S4096x49x256.size a
  hwx0_0 : ∀ i : grid0.Coords, EltTy.bits .f32 = 32 ∨ (Rect.block (s := S4096x49x256) S32x49x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x49x49.size a ≤ S8x49x49.size a
  hwx0_1 : ∀ i : grid0.Coords, EltTy.bits .f32 = 32 ∨ (Rect.block (s := S8x49x49) S8x49x49.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x49x49.size a ≤ S64x49x49.size a
  hwx0_2 : ∀ i : grid0.Coords, EltTy.bits .f32 = 32 ∨ (Rect.block (s := S64x49x49) S32x49x49.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x49x256.size a ≤ S4096x49x256.size a
  hwx0_3 : ∀ i : grid0.Coords, EltTy.bits .f32 = 32 ∨ (Rect.block (s := S4096x49x256) S32x49x256.size (cc0_transform_3 i) (hinb0_3 i)).WholeWords (EltTy.packing .f32)

variable [Facts₀]

def gather_S169x8_S2401x1_S2401x8_1_0_n_n_0_1_18 : GatherDims S169x8 S2401x1 S2401x8 where
  offsetDims := [1]
  collapsedSliceDims := [0]
  operandBatchingDims := []
  startIndicesBatchingDims := []
  startIndexMap := [0]
  indexVectorDim := 1
  sliceSizes := ![1, 8]
  wf := gather_S169x8_S2401x1_S2401x8_1_0_n_n_0_1_18_wf
def dot_S32x49x32_S32x49x32_S32x49x49_2_2_1_1_0_0 : DotDims S32x49x32 S32x49x32 S32x49x49 where
  lhsContracting := [2]
  rhsContracting := [2]
  lhsNonContracting := [1]
  rhsNonContracting := [1]
  lhsBatch := [0]
  rhsBatch := [0]
  wf := dot_S32x49x32_S32x49x32_S32x49x49_2_2_1_1_0_0_wf
def dot_S32x49x49_S32x49x32_S32x49x32_2_1_1_2_0_0 : DotDims S32x49x49 S32x49x32 S32x49x32 where
  lhsContracting := [2]
  rhsContracting := [1]
  lhsNonContracting := [1]
  rhsNonContracting := [2]
  lhsBatch := [0]
  rhsBatch := [0]
  wf := dot_S32x49x49_S32x49x32_S32x49x32_2_1_1_2_0_0_wf

abbrev win0_0 : Pipeline.Window sig grid0 :=
  Pipeline.Window.ofSpec (Memref.whole main_arg0) S32x49x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8x49x49.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x49x49.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S32x49x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x49x256 : Shape := ⟨3, ![4096, 49, 256]⟩
abbrev S169x8 : Shape := ⟨2, ![169, 8]⟩
abbrev S64x49x49 : Shape := ⟨3, ![64, 49, 49]⟩
abbrev S49x49 : Shape := ⟨2, ![49, 49]⟩
abbrev S4096x49x8x32 : Shape := ⟨4, ![4096, 49, 8, 32]⟩
abbrev S4096x8x49x32 : Shape := ⟨4, ![4096, 8, 49, 32]⟩
abbrev S_ : Shape := ⟨0, ![]⟩
abbrev S4096x8x49x49 : Shape := ⟨4, ![4096, 8, 49, 49]⟩
abbrev S2401 : Shape := ⟨1, ![2401]⟩
abbrev S2401x1 : Shape := ⟨2, ![2401, 1]⟩
abbrev S2401x8 : Shape := ⟨2, ![2401, 8]⟩
abbrev S49x49x8 : Shape := ⟨3, ![49, 49, 8]⟩
abbrev S8x49x49 : Shape := ⟨3, ![8, 49, 49]⟩
abbrev S1x8x49x49 : Shape := ⟨4, ![1, 8, 49, 49]⟩
abbrev S64x64x8x49x49 : Shape := ⟨5, ![64, 64, 8, 49, 49]⟩
abbrev S1x64x1x49x49 : Shape := ⟨5, ![1, 64, 1, 49, 49]⟩
abbrev S4096x8x49 : Shape := ⟨3, ![4096, 8, 49]⟩
abbrev S4096x8x49x1 : Shape := ⟨4, ![4096, 8, 49, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x49x256, .f32⟩
  | .hbm, ⟨1, _⟩ => ⟨S169x8, .f32⟩
  | .hbm, ⟨2, _⟩ => ⟨S64x49x49, .f32⟩
  | .hbm, ⟨3, _⟩ => ⟨S49x49, .i32⟩
  | .hbm, ⟨4, _⟩ => ⟨S4096x49x8x32, .f32⟩
  | .hbm, ⟨5, _⟩ => ⟨S4096x8x49x32, .f32⟩
  | .hbm, ⟨6, _⟩ => ⟨S_, .f32⟩
  | .hbm, ⟨7, _⟩ => ⟨S4096x8x49x32, .f32⟩
  | .hbm, ⟨8, _⟩ => ⟨S4096x8x49x32, .f32⟩
  | .hbm, ⟨9, _⟩ => ⟨S4096x8x49x49, .f32⟩
  | .hbm, ⟨10, _⟩ => ⟨S2401, .i32⟩
  | .hbm, ⟨11, _⟩ => ⟨S_, .i32⟩
  | .hbm, ⟨12, _⟩ => ⟨S2401, .i32⟩
  | .hbm, ⟨13, _⟩ => ⟨S2401, .i1⟩
  | .hbm, ⟨14, _⟩ => ⟨S_, .i32⟩
  | .hbm, ⟨15, _⟩ => ⟨S2401, .i32⟩
  | .hbm, ⟨16, _⟩ => ⟨S2401, .i32⟩
  | .hbm, ⟨17, _⟩ => ⟨S2401, .i32⟩
  | .hbm, ⟨18, _⟩ => ⟨S2401x1, .i32⟩
  | .hbm, ⟨19, _⟩ => ⟨S2401x8, .f32⟩
  | .hbm, ⟨20, _⟩ => ⟨S49x49x8, .f32⟩
  | .hbm, ⟨21, _⟩ => ⟨S8x49x49, .f32⟩
  | .hbm, ⟨22, _⟩ => ⟨S1x8x49x49, .f32⟩
  | .hbm, ⟨23, _⟩ => ⟨S4096x8x49x49, .f32⟩
  | .hbm, ⟨24, _⟩ => ⟨S4096x8x49x49, .f32⟩
  | .hbm, ⟨25, _⟩ => ⟨S64x64x8x49x49, .f32⟩
  | .hbm, ⟨26, _⟩ => ⟨S1x64x1x49x49, .f32⟩
  | .hbm, ⟨27, _⟩ => ⟨S64x64x8x49x49, .f32⟩
  | .hbm, ⟨28, _⟩ => ⟨S64x64x8x49x49, .f32⟩
  | .hbm, ⟨29, _⟩ => ⟨S4096x8x49x49, .f32⟩
  | .hbm, ⟨30, _⟩ => ⟨S_, .f32⟩
  | .hbm, ⟨31, _⟩ => ⟨S4096x8x49, .f32⟩
  | .hbm, ⟨32, _⟩ => ⟨S_, .f32⟩
  | .hbm, ⟨33, _⟩ => ⟨S4096x8x49, .f32⟩
  | .hbm, ⟨34, _⟩ => ⟨S4096x8x49, .f32⟩
  | .hbm, ⟨35, _⟩ => ⟨S4096x8x49x1, .f32⟩
  | .hbm, ⟨36, _⟩ => ⟨S4096x8x49x49, .f32⟩
  | .hbm, ⟨37, _⟩ => ⟨S4096x8x49x49, .f32⟩
  | .hbm, ⟨38, _⟩ => ⟨S4096x8x49x49, .f32⟩
  | .hbm, ⟨39, _⟩ => ⟨S_, .f32⟩
  | .hbm, ⟨40, _⟩ => ⟨S4096x8x49, .f32⟩
  | .hbm, ⟨41, _⟩ => ⟨S4096x8x49x1, .f32⟩
  | .hbm, ⟨42, _⟩ => ⟨S4096x8x49x49, .f32⟩
  | .hbm, ⟨43, _⟩ => ⟨S4096x8x49x49, .f32⟩
  | .hbm, ⟨44, _⟩ => ⟨S4096x8x49x32, .f32⟩
  | .hbm, ⟨45, _⟩ => ⟨S4096x49x8x32, .f32⟩
  | .hbm, ⟨46, _⟩ => ⟨S4096x49x256, .f32⟩
  | _, _ => ⟨S4096x49x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S4096x49x256_S4096x49x8x32 : S4096x49x256.ShapeCasts S4096x49x8x32
  transposes_S4096x49x8x32_S4096x8x49x32_0_2_1_3 : S4096x49x8x32.Transposes [0, 2, 1, 3] S4096x8x49x32
  bcast_S_S4096x8x49x32 : S_.BroadcastsInDim S4096x8x49x32 (![] : Fin 0 → Fin S4096x8x49x32.rank)
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x8_S49x49x8 : S2401x8.ShapeCasts S49x49x8
  transposes_S49x49x8_S8x49x49_2_0_1 : S49x49x8.Transposes [2, 0, 1] S8x49x49
  bcast_S8x49x49_S1x8x49x49_1_2_3 : S8x49x49.BroadcastsInDim S1x8x49x49 (![1, 2, 3] : Fin 3 → Fin S1x8x49x49.rank)
  bcast_S1x8x49x49_S4096x8x49x49_0_1_2_3 : S1x8x49x49.BroadcastsInDim S4096x8x49x49 (![0, 1, 2, 3] : Fin 4 → Fin S4096x8x49x49.rank)
  shapeCasts_S4096x8x49x49_S64x64x8x49x49 : S4096x8x49x49.ShapeCasts S64x64x8x49x49
  bcast_S64x49x49_S1x64x1x49x49_1_3_4 : S64x49x49.BroadcastsInDim S1x64x1x49x49 (![1, 3, 4] : Fin 3 → Fin S1x64x1x49x49.rank)
  bcast_S1x64x1x49x49_S64x64x8x49x49_0_1_2_3_4 : S1x64x1x49x49.BroadcastsInDim S64x64x8x49x49 (![0, 1, 2, 3, 4] : Fin 5 → Fin S64x64x8x49x49.rank)
  shapeCasts_S64x64x8x49x49_S4096x8x49x49 : S64x64x8x49x49.ShapeCasts S4096x8x49x49
  reducesTo_S4096x8x49x49_S4096x8x49_d3 : S4096x8x49x49.ReducesTo [3] S4096x8x49
  h_S_ : 0 < S_.numel
  bcast_S_S4096x8x49 : S_.BroadcastsInDim S4096x8x49 (![] : Fin 0 → Fin S4096x8x49.rank)
  bcast_S4096x8x49_S4096x8x49x1_0_1_2 : S4096x8x49.BroadcastsInDim S4096x8x49x1 (![0, 1, 2] : Fin 3 → Fin S4096x8x49x1.rank)
  bcast_S4096x8x49x1_S4096x8x49x49_0_1_2_3 : S4096x8x49x1.BroadcastsInDim S4096x8x49x49 (![0, 1, 2, 3] : Fin 4 → Fin S4096x8x49x49.rank)
  transposes_S4096x8x49x32_S4096x49x8x32_0_2_1_3 : S4096x8x49x32.Transposes [0, 2, 1, 3] S4096x49x8x32
  shapeCasts_S4096x49x8x32_S4096x49x256 : S4096x49x8x32.ShapeCasts S4096x49x256
  dot_S4096x8x49x32_S4096x8x49x32_S4096x8x49x49_3_3_2_2_01_01_wf : DotDims.WF S4096x8x49x32 S4096x8x49x32 S4096x8x49x49 [3] [3] [2] [2] [0, 1] [0, 1]
  gather_S169x8_S2401x1_S2401x8_1_0_n_n_0_1_18_wf : GatherDims.WF S169x8 S2401x1 S2401x8 [1] [0] [] [0] [] 1 ![1, 8]
  dot_S4096x8x49x49_S4096x8x49x32_S4096x8x49x32_3_2_2_3_01_01_wf : DotDims.WF S4096x8x49x49 S4096x8x49x32 S4096x8x49x32 [3] [2] [2] [3] [0, 1] [0, 1]

variable [Facts₀]

def dot_S4096x8x49x32_S4096x8x49x32_S4096x8x49x49_3_3_2_2_01_01 : DotDims S4096x8x49x32 S4096x8x49x32 S4096x8x49x49 where
  lhsContracting := [3]
  rhsContracting := [3]
  lhsNonContracting := [2]
  rhsNonContracting := [2]
  lhsBatch := [0, 1]
  rhsBatch := [0, 1]
  wf := dot_S4096x8x49x32_S4096x8x49x32_S4096x8x49x49_3_3_2_2_01_01_wf
def gather_S169x8_S2401x1_S2401x8_1_0_n_n_0_1_18 : GatherDims S169x8 S2401x1 S2401x8 where
  offsetDims := [1]
  collapsedSliceDims := [0]
  operandBatchingDims := []
  startIndicesBatchingDims := []
  startIndexMap := [0]
  indexVectorDim := 1
  sliceSizes := ![1, 8]
  wf := gather_S169x8_S2401x1_S2401x8_1_0_n_n_0_1_18_wf
def dot_S4096x8x49x49_S4096x8x49x32_S4096x8x49x32_3_2_2_3_01_01 : DotDims S4096x8x49x49 S4096x8x49x32 S4096x8x49x32 where
  lhsContracting := [3]
  rhsContracting := [2]
  lhsNonContracting := [2]
  rhsNonContracting := [3]
  lhsBatch := [0, 1]
  rhsBatch := [0, 1]
  wf := dot_S4096x8x49x49_S4096x8x49x32_S4096x8x49x32_3_2_2_3_01_01_wf

class Facts : Prop extends Facts₀ where

variable [Facts]
-- ==== Proof.HeadStages.lean ====
/-
  One head of the kernel body as a composition of five stages on whole blocks, at any float instance.

  The body handles its eight heads one after the other with the same operations: the head's 32 channels are cut out
  of the block of rows (`rowsV`), the scaled rows are multiplied against the rows (`scoresV`), the head's bias plane
  and the mask block are added (`logitsV`), each row is shifted by its maximum and exponentiated (`expV`), summed
  (`sumV`), normalised and multiplied against the rows again (`outV`). Each store's value, as the body's generated
  value terms spell it, IS this composition at the head's channel offset: the eight equations below hold by unfolding.
-/
import proofs.«110194_j26508538151573_1_alg».proof.Proof.Gen.KernelIdeal.Skeleton

noncomputable section

namespace Cert.KernelIdeal.Head

open Cert.KernelIdeal Idealize.ShloMosaic Idealize.SL.Sem
open Cert.KernelIdeal.Facts₀

variable {F : FTy → Type} [FloatOps F] [Cert.KernelIdeal.Facts]

/-- The head's rows: channels `32·o … 32·o + 31` of every token of the block. -/
def rowsV (o : Nat) (hs : S32x49x8x32.Slices ![0, 0, o, 0] S32x49x1x32) (v1 : FVec F S32x49x8x32 .f32) : FVec F S32x49x32 .f32 :=
  shapeCast S32x49x32 (extractStridedSlice S32x49x1x32 ![0, 0, o, 0] v1 hs) shapeCasts_S32x49x1x32_S32x49x32

/-- Scaled rows against rows: the 49 × 49 scores of every window of the block. -/
def scoresV (xh : FVec F S32x49x32 .f32) : FVec F S32x49x49 .f32 :=
  matmul dot_S32x49x32_S32x49x32_S32x49x49_2_2_1_1_0_0 none
    (truncf .bf16 (mulf xh (broadcast S32x49x32 (Scalar.ofBits .f32 0x3E3504F3#32))) bitsLt_bf16_f32)
    (truncf .bf16 xh bitsLt_bf16_f32) (constant S32x49x49 .f32 0x00000000#32)

/-- The scores plus the head's bias plane (the same for every window) plus the mask block. -/
def logitsV (sc : FVec F S32x49x49 .f32) (v2 : Vec F S32x49x49 .f32) (b1 : Vec F S1x49x49 .f32) : FVec F S32x49x49 .f32 :=
  addf (addf sc (broadcastTo S32x49x49 (shapeCast S1x49x49 (shapeCast S49x49 b1 shapeCasts_S1x49x49_S49x49) shapeCasts_S49x49_S1x49x49)
    broadcasts_S1x49x49_S32x49x49)) v2

/-- Every row shifted by its maximum and exponentiated. -/
def expV (a : FVec F S32x49x49 .f32) : FVec F S32x49x49 .f32 :=
  exp (subf a (broadcastTo S32x49x49 (shapeCast S32x49x1
    (maximumf (broadcast S32x49 (Scalar.ofBits .f32 0xFF800000#32))
      (multiReduction .maximumf [2] S32x49 a 0xFF800000#32 reduces_S32x49x49_S32x49 (.inl rfl) rfl))
    shapeCasts_S32x49_S32x49x1) broadcasts_S32x49x1_S32x49x49))

/-- The rows' sums, as a column. -/
def sumV (e : FVec F S32x49x49 .f32) : FVec F S32x49x1 .f32 :=
  shapeCast S32x49x1 (multiReduction .add [2] S32x49 e 0x00000000#32 reduces_S32x49x49_S32x49 (.inl rfl) rfl) shapeCasts_S32x49_S32x49x1

/-- The normalised exponentials against the rows. -/
def outV (xhb : FVec F S32x49x32 .bf16) (e : FVec F S32x49x49 .f32) (s : FVec F S32x49x1 .f32) : FVec F S32x49x32 .f32 :=
  matmul dot_S32x49x49_S32x49x32_S32x49x32_2_1_1_2_0_0 none
    (truncf .bf16 (divf e (broadcastTo S32x49x49 s broadcasts_S32x49x1_S32x49x49)) bitsLt_bf16_f32) xhb (constant S32x49x32 .f32 0x00000000#32)

/-- One head, from the block of rows (already split into heads), the mask block and the head's bias plane. -/
def headV (o : Nat) (hs : S32x49x8x32.Slices ![0, 0, o, 0] S32x49x1x32) (v1 : FVec F S32x49x8x32 .f32) (v2 : Vec F S32x49x49 .f32)
    (b1 : Vec F S1x49x49 .f32) : FVec F S32x49x32 .f32 :=
  outV (truncf .bf16 (rowsV o hs v1) bitsLt_bf16_f32) (expV (logitsV (scoresV (rowsV o hs v1)) v2 b1))
    (sumV (expV (logitsV (scoresV (rowsV o hs v1)) v2 b1)))

/-! ## The eight stored values are the eight heads -/

theorem head0_eq (x0 : Vec F S32x49x256 .f32) (x2 : Vec F S32x49x49 .f32) (b1 : Vec F S1x49x49 .f32) :
    Gen.k0_pay3 x0 x2 b1 = headV 0 slices_S32x49x8x32_o0_0_0_0_S32x49x1x32 (Gen.k0_pay2 x0) x2 b1 := rfl

theorem head1_eq (x0 : Vec F S32x49x256 .f32) (x2 : Vec F S32x49x49 .f32) (b1 : Vec F S1x49x49 .f32) :
    Gen.k0_pay7 x2 (Gen.k0_pay5 x0) (Gen.k0_pay6 x0) b1 = headV 1 slices_S32x49x8x32_o0_0_1_0_S32x49x1x32 (Gen.k0_pay2 x0) x2 b1 := rfl

theorem head2_eq (v1 : FVec F S32x49x8x32 .f32) (x2 : Vec F S32x49x49 .f32) (b1 : Vec F S1x49x49 .f32) :
    Gen.k0_pay12 (Gen.k0_pay9 v1) (Gen.k0_pay10 v1 x2 b1) (Gen.k0_pay11 v1 x2 b1) = headV 2 slices_S32x49x8x32_o0_0_2_0_S32x49x1x32 v1 x2 b1 := rfl

theorem head3_eq (v1 : FVec F S32x49x8x32 .f32) (x2 : Vec F S32x49x49 .f32) (b1 : Vec F S1x49x49 .f32) :
    Gen.k0_pay13 v1 x2 b1 = headV 3 slices_S32x49x8x32_o0_0_3_0_S32x49x1x32 v1 x2 b1 := rfl

theorem head4_eq (v1 : FVec F S32x49x8x32 .f32) (x2 : Vec F S32x49x49 .f32) (b1 : Vec F S1x49x49 .f32) :
    Gen.k0_pay17 x2 (Gen.k0_pay15 v1) (Gen.k0_pay16 v1) b1 = headV 4 slices_S32x49x8x32_o0_0_4_0_S32x49x1x32 v1 x2 b1 := rfl

theorem head5_eq (v1 : FVec F S32x49x8x32 .f32) (x2 : Vec F S32x49x49 .f32) (b1 : Vec F S1x49x49 .f32) :
    Gen.k0_pay22 (Gen.k0_pay19 v1) (Gen.k0_pay20 v1 x2 b1) (Gen.k0_pay21 v1 x2 b1) = headV 5 slices_S32x49x8x32_o0_0_5_0_S32x49x1x32 v1 x2 b1 := rfl

theorem head6_eq (v1 : FVec F S32x49x8x32 .f32) (x2 : Vec F S32x49x49 .f32) (b1 : Vec F S1x49x49 .f32) :
    Gen.k0_pay23 v1 x2 b1 = headV 6 slices_S32x49x8x32_o0_0_6_0_S32x49x1x32 v1 x2 b1 := rfl

theorem head7_eq (v1 : FVec F S32x49x8x32 .f32) (x2 : Vec F S32x49x49 .f32) (b1 : Vec F S1x49x49 .f32) :
    Gen.k0_pay1 x2 (Gen.k0_pay25 v1) (Gen.k0_pay26 v1) b1 = headV 7 slices_S32x49x8x32_o0_0_7_0_S32x49x1x32 v1 x2 b1 := rfl

end Cert.KernelIdeal.Head

end
-- ==== Proof.Attention.lean ====
/-
  Windowed self-attention with a relative-position bias and an additive window mask, as ONE function of the
  argument arrays over the extended reals.

  For a window-batch `b` and a head `h` let `X i d = x[b, i, 32·h + d]` (49 tokens, 32 channels per head),
  `B i j = bias[h, i, j]` and `M i j = mask[b mod 64, i, j]`. The head's logits are
  `A i j = (∑ d, (X i d · s) · X j d) + B i j + M i j` with `s` the f32 word of `32^(-1/2)`; each row is shifted by its
  maximum (taken from `-∞`), exponentiated and normalised by the row's sum; the head's output is
  `out i d = ∑ j, P i j · X j d`, written to `result[b, i, 32·h + d]`.
-/
import Idealize.ShloMosaic.PureOps.Ideal.Laws
import Idealize.ShloMosaic.Lib.ValueIdx

noncomputable section

namespace Cert.WindowAttention

open Idealize.ShloMosaic Idealize.ShloMosaic.ValueIdx

/-- The f32 word of `-∞`, the value every row maximum starts from. -/
abbrev negInf : EReal := Ideal.ofBits .f32 0xFF800000#32
/-- The f32 word of `32^(-1/2)`, the query scale; the same word on both sides, never evaluated. -/
abbrev qScale : EReal := Ideal.ofBits .f32 0x3E3504F3#32

/-- One head's logits: scaled query rows against key rows, plus the bias and the mask. -/
def logit (X : Fin 49 → Fin 32 → EReal) (B M : Fin 49 → Fin 49 → EReal) (i j : Fin 49) : EReal :=
  (∑ d : Fin 32, (X i d * qScale) * X j d) + B i j + M i j

/-- A row's maximum, folded from `-∞` and once more compared with `-∞`. -/
def rowMax (a : Fin 49 → EReal) : EReal :=
  max negInf ((Finset.univ : Finset (Fin 49)).fold max negInf a)

/-- The shifted exponentials of a row of logits. -/
def expo (X : Fin 49 → Fin 32 → EReal) (B M : Fin 49 → Fin 49 → EReal) (i j : Fin 49) : EReal :=
  Ideal.exp (logit X B M i j - rowMax (logit X B M i))

/-- The row's normaliser. -/
def denom (X : Fin 49 → Fin 32 → EReal) (B M : Fin 49 → Fin 49 → EReal) (i : Fin 49) : EReal :=
  ∑ j : Fin 49, expo X B M i j

/-- The attention probabilities. -/
def prob (X : Fin 49 → Fin 32 → EReal) (B M : Fin 49 → Fin 49 → EReal) (i j : Fin 49) : EReal :=
  Ideal.div (expo X B M i j) (denom X B M i)

/-- One head's output: the probabilities against the value rows (the same rows as the keys). -/
def headOut (X : Fin 49 → Fin 32 → EReal) (B M : Fin 49 → Fin 49 → EReal) (i : Fin 49) (d : Fin 32) : EReal :=
  ∑ j : Fin 49, prob X B M i j * X j d

/-- The head's output depends on the three tables only through their values. -/
theorem headOut_congr {X X' : Fin 49 → Fin 32 → EReal} {B B' M M' : Fin 49 → Fin 49 → EReal}
    (hX : ∀ i d, X i d = X' i d) (hB : ∀ i j, B i j = B' i j) (hM : ∀ i j, M i j = M' i j) (i : Fin 49) (d : Fin 32) :
    headOut X B M i d = headOut X' B' M' i d := by
  have eX : X = X' := funext fun i => funext fun d => hX i d
  have eB : B = B' := funext fun i => funext fun j => hB i j
  have eM : M = M' := funext fun i => funext fun j => hM i j
  rw [eX, eB, eM]

/-- Channel `32·h + d` of head `h`. -/
abbrev chan (h : Fin 8) (d : Fin 32) : Fin 256 := ⟨h.val * 32 + d.val, by have := h.isLt; have := d.isLt; omega⟩
/-- The head a channel belongs to. -/
abbrev headOf (c : Fin 256) : Fin 8 := ⟨c.val / 32, by have := c.isLt; omega⟩
/-- A channel's place inside its head. -/
abbrev laneOf (c : Fin 256) : Fin 32 := ⟨c.val % 32, Nat.mod_lt _ (by decide)⟩
/-- The mask row of a window-batch. -/
abbrev winOf (b : Fin 4096) : Fin 64 := ⟨b.val % 64, Nat.mod_lt _ (by decide)⟩

/-- The result at window-batch `b`, token `i`, channel `c`. -/
def attnAt (x : (⟨3, ![4096, 49, 256]⟩ : Shape).Idx → EReal) (bias : (⟨3, ![8, 49, 49]⟩ : Shape).Idx → EReal)
    (mask : (⟨3, ![64, 49, 49]⟩ : Shape).Idx → EReal) (b : Fin 4096) (i : Fin 49) (c : Fin 256) : EReal :=
  headOut (fun i d => x (ix3 b i (chan (headOf c) d))) (fun i j => bias (ix3 (headOf c) i j))
    (fun i j => mask (ix3 (winOf b) i j)) i (laneOf c)

/-- The whole result array. -/
def attn (x : (⟨3, ![4096, 49, 256]⟩ : Shape).Idx → EReal) (bias : (⟨3, ![8, 49, 49]⟩ : Shape).Idx → EReal)
    (mask : (⟨3, ![64, 49, 49]⟩ : Shape).Idx → EReal) : (⟨3, ![4096, 49, 256]⟩ : Shape).Idx → EReal :=
  fun y => attnAt x bias mask (y 0) (y 1) (y 2)

theorem attn_ix3 (x : (⟨3, ![4096, 49, 256]⟩ : Shape).Idx → EReal) (bias : (⟨3, ![8, 49, 49]⟩ : Shape).Idx → EReal)
    (mask : (⟨3, ![64, 49, 49]⟩ : Shape).Idx → EReal) (b : Fin 4096) (i : Fin 49) (c : Fin 256) :
    attn x bias mask (ix3 b i c) = attnAt x bias mask b i c := rfl

end Cert.WindowAttention

end
-- ==== Proof.HeadValue.lean ====
/-
  One head of the kernel body read at an index, over the extended reals.

  Stage by stage: the head's rows read channels `32·o + d` of the block; the scores are the sum over the 32 channels of
  scaled row against row; the logits add the bias plane at `(i, j)` and the mask block at `(t, i, j)`; a row's shift is the
  fold of `max` from `-∞` over its 49 logits; the normaliser is the sum of the row's exponentials; the output is the sum
  over the 49 keys of probability times row. Together: the head's value at `(t, i, d)` is `headOut` of the three tables.
-/
import proofs.«110194_j26508538151573_1_alg».proof.Proof.HeadStages
import proofs.«110194_j26508538151573_1_alg».proof.Proof.Attention
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Head

open Cert.KernelIdeal Idealize.ShloMosaic Idealize.SL.Sem Idealize.ShloMosaic.ValueIdx Cert.WindowAttention
open Cert.KernelIdeal.Facts₀

variable [Cert.KernelIdeal.Facts]

/-- The block of rows split into heads: head `h`, lane `d` of token `i` is channel `32·h + d`. -/
theorem split_apply (x0 : Vec Ideal S32x49x256 .f32) (tb : Fin 32) (i : Fin 49) (h : Fin 8) (d : Fin 32) :
    Gen.k0_pay2 x0 (ix4 tb i h d) = x0 (ix3 tb i (chan h d)) := by
  unfold Gen.k0_pay2
  exact shapeCast_apply x0 shapeCasts_S32x49x256_S32x49x8x32 (ix4 tb i h d) (ix3 tb i (chan h d)) (by
    rw [Shape.rowMajor_val_three, Shape.rowMajor_val_four]
    show (tb.val * 49 + i.val) * 256 + (h.val * 32 + d.val) = ((tb.val * 49 + i.val) * 8 + h.val) * 32 + d.val
    omega)

/-- The head's rows are the block's rows at that head. -/
theorem rowsV_apply (o : Nat) (ho : o < 8) (hs : S32x49x8x32.Slices ![0, 0, o, 0] S32x49x1x32) (v1 : FVec Ideal S32x49x8x32 .f32)
    (tb : Fin 32) (i : Fin 49) (d : Fin 32) :
    rowsV o hs v1 (ix3 tb i d) = v1 (ix4 tb i (⟨o, ho⟩ : Fin 8) d) := by
  unfold rowsV
  refine (shapeCast_apply _ shapeCasts_S32x49x1x32_S32x49x32 (ix3 tb i d) (ix4 tb i (0 : Fin 1) d) (by
    rw [Shape.rowMajor_val_four, Shape.rowMajor_val_three]
    show ((tb.val * 49 + i.val) * 1 + 0) * 32 + d.val = (tb.val * 49 + i.val) * 32 + d.val
    omega)).trans ?_
  exact slice4_axis2_apply o v1 hs tb i (0 : Fin 1) d (⟨o, ho⟩ : Fin 8) rfl

/-! ### The two products' operand indices -/

section Dots

theorem qk_lhs0 (y : S32x49x49.Idx) (q : dot_S32x49x32_S32x49x32_S32x49x49_2_2_1_1_0_0.contr.Idx) :
    (dot_S32x49x32_S32x49x32_S32x49x49_2_2_1_1_0_0.lhsIdx y q 0).val = (y 0).val := by
  unfold DotDims.lhsIdx
  rw [dif_pos (show (0 : Fin S32x49x32.rank) ∈ dot_S32x49x32_S32x49x32_S32x49x49_2_2_1_1_0_0.lhsBatch by decide)]
  rfl
theorem qk_lhs1 (y : S32x49x49.Idx) (q : dot_S32x49x32_S32x49x32_S32x49x49_2_2_1_1_0_0.contr.Idx) :
    (dot_S32x49x32_S32x49x32_S32x49x49_2_2_1_1_0_0.lhsIdx y q 1).val = (y 1).val := by
  unfold DotDims.lhsIdx
  rw [dif_neg (show ¬(1 : Fin S32x49x32.rank) ∈ dot_S32x49x32_S32x49x32_S32x49x49_2_2_1_1_0_0.lhsBatch by decide), dif_pos (show (1 : Fin S32x49x32.rank) ∈ dot_S32x49x32_S32x49x32_S32x49x49_2_2_1_1_0_0.lhsNonContracting by decide)]
  rfl
theorem qk_lhs2 (y : S32x49x49.Idx) (q : dot_S32x49x32_S32x49x32_S32x49x49_2_2_1_1_0_0.contr.Idx) :
    (dot_S32x49x32_S32x49x32_S32x49x49_2_2_1_1_0_0.lhsIdx y q 2).val = (q ⟨0, by decide⟩).val :=
  dot_S32x49x32_S32x49x32_S32x49x49_2_2_1_1_0_0.lhsIdx_val_of_single rfl y q
theorem qk_rhs0 (y : S32x49x49.Idx) (q : dot_S32x49x32_S32x49x32_S32x49x49_2_2_1_1_0_0.contr.Idx) :
    (dot_S32x49x32_S32x49x32_S32x49x49_2_2_1_1_0_0.rhsIdx y q 0).val = (y 0).val := by
  unfold DotDims.rhsIdx
  rw [dif_pos (show (0 : Fin S32x49x32.rank) ∈ dot_S32x49x32_S32x49x32_S32x49x49_2_2_1_1_0_0.rhsBatch by decide)]
  rfl
theorem qk_rhs1 (y : S32x49x49.Idx) (q : dot_S32x49x32_S32x49x32_S32x49x49_2_2_1_1_0_0.contr.Idx) :
    (dot_S32x49x32_S32x49x32_S32x49x49_2_2_1_1_0_0.rhsIdx y q 1).val = (y 2).val := by
  unfold DotDims.rhsIdx
  rw [dif_neg (show ¬(1 : Fin S32x49x32.rank) ∈ dot_S32x49x32_S32x49x32_S32x49x49_2_2_1_1_0_0.rhsBatch by decide), dif_pos (show (1 : Fin S32x49x32.rank) ∈ dot_S32x49x32_S32x49x32_S32x49x49_2_2_1_1_0_0.rhsNonContracting by decide)]
  rfl
theorem qk_rhs2 (y : S32x49x49.Idx) (q : dot_S32x49x32_S32x49x32_S32x49x49_2_2_1_1_0_0.contr.Idx) :
    (dot_S32x49x32_S32x49x32_S32x49x49_2_2_1_1_0_0.rhsIdx y q 2).val = (q ⟨0, by decide⟩).val :=
  dot_S32x49x32_S32x49x32_S32x49x49_2_2_1_1_0_0.rhsIdx_val_of_single rfl y q
theorem pv_lhs0 (y : S32x49x32.Idx) (q : dot_S32x49x49_S32x49x32_S32x49x32_2_1_1_2_0_0.contr.Idx) :
    (dot_S32x49x49_S32x49x32_S32x49x32_2_1_1_2_0_0.lhsIdx y q 0).val = (y 0).val := by
  unfold DotDims.lhsIdx
  rw [dif_pos (show (0 : Fin S32x49x49.rank) ∈ dot_S32x49x49_S32x49x32_S32x49x32_2_1_1_2_0_0.lhsBatch by decide)]
  rfl
theorem pv_lhs1 (y : S32x49x32.Idx) (q : dot_S32x49x49_S32x49x32_S32x49x32_2_1_1_2_0_0.contr.Idx) :
    (dot_S32x49x49_S32x49x32_S32x49x32_2_1_1_2_0_0.lhsIdx y q 1).val = (y 1).val := by
  unfold DotDims.lhsIdx
  rw [dif_neg (show ¬(1 : Fin S32x49x49.rank) ∈ dot_S32x49x49_S32x49x32_S32x49x32_2_1_1_2_0_0.lhsBatch by decide), dif_pos (show (1 : Fin S32x49x49.rank) ∈ dot_S32x49x49_S32x49x32_S32x49x32_2_1_1_2_0_0.lhsNonContracting by decide)]
  rfl
theorem pv_lhs2 (y : S32x49x32.Idx) (q : dot_S32x49x49_S32x49x32_S32x49x32_2_1_1_2_0_0.contr.Idx) :
    (dot_S32x49x49_S32x49x32_S32x49x32_2_1_1_2_0_0.lhsIdx y q 2).val = (q ⟨0, by decide⟩).val :=
  dot_S32x49x49_S32x49x32_S32x49x32_2_1_1_2_0_0.lhsIdx_val_of_single rfl y q
theorem pv_rhs0 (y : S32x49x32.Idx) (q : dot_S32x49x49_S32x49x32_S32x49x32_2_1_1_2_0_0.contr.Idx) :
    (dot_S32x49x49_S32x49x32_S32x49x32_2_1_1_2_0_0.rhsIdx y q 0).val = (y 0).val := by
  unfold DotDims.rhsIdx
  rw [dif_pos (show (0 : Fin S32x49x32.rank) ∈ dot_S32x49x49_S32x49x32_S32x49x32_2_1_1_2_0_0.rhsBatch by decide)]
  rfl
theorem pv_rhs1 (y : S32x49x32.Idx) (q : dot_S32x49x49_S32x49x32_S32x49x32_2_1_1_2_0_0.contr.Idx) :
    (dot_S32x49x49_S32x49x32_S32x49x32_2_1_1_2_0_0.rhsIdx y q 1).val = (q ⟨0, by decide⟩).val :=
  dot_S32x49x49_S32x49x32_S32x49x32_2_1_1_2_0_0.rhsIdx_val_of_single rfl y q
theorem pv_rhs2 (y : S32x49x32.Idx) (q : dot_S32x49x49_S32x49x32_S32x49x32_2_1_1_2_0_0.contr.Idx) :
    (dot_S32x49x49_S32x49x32_S32x49x32_2_1_1_2_0_0.rhsIdx y q 2).val = (y 2).val := by
  unfold DotDims.rhsIdx
  rw [dif_neg (show ¬(2 : Fin S32x49x32.rank) ∈ dot_S32x49x49_S32x49x32_S32x49x32_2_1_1_2_0_0.rhsBatch by decide), dif_pos (show (2 : Fin S32x49x32.rank) ∈ dot_S32x49x49_S32x49x32_S32x49x32_2_1_1_2_0_0.rhsNonContracting by decide)]
  rfl

/-- Scores at `(t, i, j)`, channel `k`: the left operand is read at `(t, i, k)`, the right at `(t, j, k)`. -/
theorem qk_lhs (q : dot_S32x49x32_S32x49x32_S32x49x49_2_2_1_1_0_0.contr.Idx) (k : Fin 32) (hk : (q ⟨0, by decide⟩).val = k.val) (tb : Fin 32) (i j : Fin 49) :
    dot_S32x49x32_S32x49x32_S32x49x49_2_2_1_1_0_0.lhsIdx (ix3 tb i j) q = ix3 tb i k := funext fun a => Fin.ext (by
  match a with
  | ⟨0, _⟩ => exact qk_lhs0 _ _
  | ⟨1, _⟩ => exact qk_lhs1 _ _
  | ⟨2, _⟩ => exact (qk_lhs2 _ _).trans hk)
theorem qk_rhs (q : dot_S32x49x32_S32x49x32_S32x49x49_2_2_1_1_0_0.contr.Idx) (k : Fin 32) (hk : (q ⟨0, by decide⟩).val = k.val) (tb : Fin 32) (i j : Fin 49) :
    dot_S32x49x32_S32x49x32_S32x49x49_2_2_1_1_0_0.rhsIdx (ix3 tb i j) q = ix3 tb j k := funext fun a => Fin.ext (by
  match a with
  | ⟨0, _⟩ => exact qk_rhs0 _ _
  | ⟨1, _⟩ => exact qk_rhs1 _ _
  | ⟨2, _⟩ => exact (qk_rhs2 _ _).trans hk)
/-- Output at `(t, i, d)`, key `k`: the left operand is read at `(t, i, k)`, the right at `(t, k, d)`. -/
theorem pv_lhs (q : dot_S32x49x49_S32x49x32_S32x49x32_2_1_1_2_0_0.contr.Idx) (k : Fin 49) (hk : (q ⟨0, by decide⟩).val = k.val) (tb : Fin 32) (i : Fin 49) (d : Fin 32) :
    dot_S32x49x49_S32x49x32_S32x49x32_2_1_1_2_0_0.lhsIdx (ix3 tb i d) q = ix3 tb i k := funext fun a => Fin.ext (by
  match a with
  | ⟨0, _⟩ => exact pv_lhs0 _ _
  | ⟨1, _⟩ => exact pv_lhs1 _ _
  | ⟨2, _⟩ => exact (pv_lhs2 _ _).trans hk)
theorem pv_rhs (q : dot_S32x49x49_S32x49x32_S32x49x32_2_1_1_2_0_0.contr.Idx) (k : Fin 49) (hk : (q ⟨0, by decide⟩).val = k.val) (tb : Fin 32) (i : Fin 49) (d : Fin 32) :
    dot_S32x49x49_S32x49x32_S32x49x32_2_1_1_2_0_0.rhsIdx (ix3 tb i d) q = ix3 tb k d := funext fun a => Fin.ext (by
  match a with
  | ⟨0, _⟩ => exact pv_rhs0 _ _
  | ⟨1, _⟩ => exact (pv_rhs1 _ _).trans hk
  | ⟨2, _⟩ => exact pv_rhs2 _ _)

end Dots

/-- The scores: scaled row `i` against row `j`, summed over the head's 32 channels. -/
theorem scoresV_apply (xh : FVec Ideal S32x49x32 .f32) (tb : Fin 32) (i j : Fin 49) :
    scoresV xh (ix3 tb i j) = ∑ d : Fin 32, (xh (ix3 tb i d) * qScale) * xh (ix3 tb j d) := by
  unfold scoresV
  simp only [matmul]
  rw [Ideal.matmul_constant_zero_apply,
    ← Equiv.sum_comp (contrEquiv1 dot_S32x49x32_S32x49x32_S32x49x49_2_2_1_1_0_0 32 rfl rfl).symm]
  refine Finset.sum_congr rfl fun k _ => ?_
  have hk := contrEquiv1_symm_val dot_S32x49x32_S32x49x32_S32x49x49_2_2_1_1_0_0 32 rfl rfl k
  rw [qk_lhs _ k hk tb i j, qk_rhs _ k hk tb i j]
  rfl

/-- The logits: score plus bias plane plus mask block. -/
theorem logitsV_apply (sc : FVec Ideal S32x49x49 .f32) (v2 : Vec Ideal S32x49x49 .f32) (b1 : Vec Ideal S1x49x49 .f32)
    (tb : Fin 32) (i j : Fin 49) :
    logitsV sc v2 b1 (ix3 tb i j) = sc (ix3 tb i j) + b1 (ix3 (0 : Fin 1) i j) + v2 (ix3 tb i j) := by
  unfold logitsV
  rw [shapeCast_shapeCast]
  show sc (ix3 tb i j) + broadcastTo S32x49x49 b1 broadcasts_S1x49x49_S32x49x49 (ix3 tb i j) + v2 (ix3 tb i j) = _
  rw [broadcastTo_apply b1 broadcasts_S1x49x49_S32x49x49 (ix3 tb i j) (ix3 (0 : Fin 1) i j) (fun a => by
    match a with
    | ⟨0, _⟩ => rfl
    | ⟨1, _⟩ => rfl
    | ⟨2, _⟩ => rfl)]

/-- A column `[32, 49] → [32, 49, 1]` laid along the 49 keys reads the column at the row. -/
theorem column_apply {α : Type} (v : S32x49.Idx → α) (tb : Fin 32) (i j : Fin 49) :
    broadcastTo S32x49x49 (shapeCast S32x49x1 v shapeCasts_S32x49_S32x49x1) broadcasts_S32x49x1_S32x49x49 (ix3 tb i j) = v (ix2 tb i) := by
  refine (broadcastTo_apply _ broadcasts_S32x49x1_S32x49x49 (ix3 tb i j) (ix3 tb i (0 : Fin 1)) (fun a => by
    match a with
    | ⟨0, _⟩ => rfl
    | ⟨1, _⟩ => rfl
    | ⟨2, _⟩ => rfl)).trans ?_
  exact shapeCast_apply v shapeCasts_S32x49_S32x49x1 (ix3 tb i (0 : Fin 1)) (ix2 tb i) (by
    rw [Shape.rowMajor_val_two, Shape.rowMajor_val_three]
    show tb.val * 49 + i.val = (tb.val * 49 + i.val) * 1 + 0
    omega)

/-- The shifted exponentials: each logit minus its row's maximum. -/
theorem expV_apply (a : FVec Ideal S32x49x49 .f32) (tb : Fin 32) (i j : Fin 49) :
    expV a (ix3 tb i j) = Ideal.exp (a (ix3 tb i j) - rowMax (fun k => a (ix3 tb i k))) := by
  unfold expV
  show Ideal.exp (a (ix3 tb i j) - broadcastTo S32x49x49 (shapeCast S32x49x1 _ shapeCasts_S32x49_S32x49x1) broadcasts_S32x49x1_S32x49x49 (ix3 tb i j)) = _
  rw [column_apply]
  show Ideal.exp (a (ix3 tb i j) - max negInf (multiReduction .maximumf [2] S32x49 a 0xFF800000#32 reduces_S32x49x49_S32x49 (.inl rfl) rfl (ix2 tb i))) = _
  refine congrArg (fun z => Ideal.exp (a (ix3 tb i j) - max negInf z)) ?_
  refine (Ideal.multiReduction_maximumf_single a _ reduces_S32x49x49_S32x49 (.inl rfl) rfl (ix2 tb i)).trans ?_
  show (Finset.univ : Finset (Fin 49)).fold max negInf (a ∘ reduces_S32x49x49_S32x49.lift (ix2 tb i)) = _
  refine congrArg (fun f => (Finset.univ : Finset (Fin 49)).fold max negInf f) (funext fun k => ?_)
  exact congrArg a (funext fun ax => Fin.ext (by
    match ax with
    | ⟨0, _⟩ => rfl
    | ⟨1, _⟩ => rfl
    | ⟨2, _⟩ => rfl))

/-- The normaliser laid along the keys: the sum of the row. -/
theorem sumV_apply (e : FVec Ideal S32x49x49 .f32) (tb : Fin 32) (i j : Fin 49) :
    broadcastTo S32x49x49 (sumV e) broadcasts_S32x49x1_S32x49x49 (ix3 tb i j) = ∑ k : Fin 49, e (ix3 tb i k) := by
  unfold sumV
  rw [column_apply]
  refine (Ideal.multiReduction_add_single e _ reduces_S32x49x49_S32x49 (.inl rfl) rfl (ix2 tb i)).trans ?_
  show ∑ k : Fin 49, e (reduces_S32x49x49_S32x49.lift (ix2 tb i) k) = _
  refine Finset.sum_congr rfl fun k _ => ?_
  exact congrArg e (funext fun ax => Fin.ext (by
    match ax with
    | ⟨0, _⟩ => rfl
    | ⟨1, _⟩ => rfl
    | ⟨2, _⟩ => rfl))

/-- The output: normalised exponentials against the rows, summed over the 49 keys. -/
theorem outV_apply (xhb : FVec Ideal S32x49x32 .bf16) (e : FVec Ideal S32x49x49 .f32) (s : FVec Ideal S32x49x1 .f32)
    (tb : Fin 32) (i : Fin 49) (d : Fin 32) :
    outV xhb e s (ix3 tb i d)
      = ∑ j : Fin 49, Ideal.div (e (ix3 tb i j)) (broadcastTo S32x49x49 s broadcasts_S32x49x1_S32x49x49 (ix3 tb i j)) * xhb (ix3 tb j d) := by
  unfold outV
  simp only [matmul]
  rw [Ideal.matmul_constant_zero_apply,
    ← Equiv.sum_comp (contrEquiv1 dot_S32x49x49_S32x49x32_S32x49x32_2_1_1_2_0_0 49 rfl rfl).symm]
  refine Finset.sum_congr rfl fun k _ => ?_
  have hk := contrEquiv1_symm_val dot_S32x49x49_S32x49x32_S32x49x32_2_1_1_2_0_0 49 rfl rfl k
  rw [pv_lhs _ k hk tb i d, pv_rhs _ k hk tb i d]
  rfl

/-- One head at an index: `headOut` of the head's rows, the bias plane and the mask block. -/
theorem headV_apply (o : Nat) (ho : o < 8) (hs : S32x49x8x32.Slices ![0, 0, o, 0] S32x49x1x32) (v1 : FVec Ideal S32x49x8x32 .f32)
    (v2 : Vec Ideal S32x49x49 .f32) (b1 : Vec Ideal S1x49x49 .f32) (tb : Fin 32) (i : Fin 49) (d : Fin 32) :
    headV o hs v1 v2 b1 (ix3 tb i d)
      = headOut (fun i d => v1 (ix4 tb i (⟨o, ho⟩ : Fin 8) d)) (fun i j => b1 (ix3 (0 : Fin 1) i j)) (fun i j => v2 (ix3 tb i j)) i d := by
  unfold headV headOut
  rw [outV_apply]
  refine Finset.sum_congr rfl fun j _ => ?_
  rw [sumV_apply]
  unfold prob denom expo logit
  simp only [expV_apply, logitsV_apply, scoresV_apply, truncf_apply, rowsV_apply o ho]

end Cert.KernelIdeal.Head

end
-- ==== Proof.BlockValue.lean ====
/-
  What the kernel body leaves in the output block, as ONE function of its three input blocks.

  The body stores eight column slabs, slab `h` holding head `h`'s output in channels `32·h … 32·h + 31`. Each slab is the
  restriction of one function of the block index `(t, i, c)`: the head `c / 32` of the block's rows, against bias plane
  `c / 32` and the mask block, at token `i` and lane `c mod 32`. The slabs tile the block, so the block IS that function.
-/
import proofs.«110194_j26508538151573_1_alg».proof.Proof.HeadValue
import proofs.«110194_j26508538151573_1_alg».proof.Proof.Gen.KernelIdeal.Frame

set_option maxRecDepth 16384

noncomputable section

namespace Cert.KernelIdeal.Block

open Cert.KernelIdeal Idealize.ShloMosaic Idealize.SL.Sem Idealize.ShloMosaic.ValueIdx Cert.WindowAttention
open Cert.KernelIdeal.Head
open Cert.KernelIdeal.Facts₀

variable [Cert.KernelIdeal.Facts]

/-- The output block at window `t` of the block, token `i`, channel `c`. -/
def blockAt (x0 : Vec Ideal S32x49x256 .f32) (x1 : Vec Ideal S8x49x49 .f32) (x2 : Vec Ideal S32x49x49 .f32)
    (tb : Fin 32) (i : Fin 49) (c : Fin 256) : EReal :=
  headOut (fun i d => x0 (ix3 tb i (chan (headOf c) d))) (fun i j => x1 (ix3 (headOf c) i j)) (fun i j => x2 (ix3 tb i j)) i (laneOf c)

/-- The whole output block. -/
def blockAttn (x0 : Vec Ideal S32x49x256 .f32) (x1 : Vec Ideal S8x49x49 .f32) (x2 : Vec Ideal S32x49x49 .f32) : Vec Ideal S32x49x256 .f32 :=
  fun y => blockAt x0 x1 x2 (y 0) (y 1) (y 2)

theorem hz3 : (![0, 0, 0] : Fin 3 → Nat) = fun _ => 0 := funext fun a => by fin_cases a <;> rfl

/-- Head `o`'s slab is the block function read through the slab's rectangle (columns from `c0 = 32·o`). -/
theorem slab_eq (o : Nat) (ho : o < 8) (c0 : Nat) (hc : c0 = 32 * o) (hs : S32x49x8x32.Slices ![0, 0, o, 0] S32x49x1x32)
    (inbx : ∀ a, (![0, 0, c0] : Fin 3 → Nat) a + S32x49x32.size a ≤ S32x49x256.size a)
    (inbb : ∀ a, (![o, 0, 0] : Fin 3 → Nat) a + S1x49x49.size a ≤ S8x49x49.size a)
    (x0 : Vec Ideal S32x49x256 .f32) (x1 : Vec Ideal S8x49x49 .f32) (x2 : Vec Ideal S32x49x49 .f32) (x : S32x49x32.Idx) :
    headV o hs (Gen.k0_pay2 (View.ld x0 Gen.r0_0)) (View.ld x2 Gen.r0_1) (View.ld x1 (Rect.unit (s := S8x49x49) ![o, 0, 0] S1x49x49.size inbb)) x
      = blockAttn x0 x1 x2 ((Rect.unit (s := S32x49x256) ![0, 0, c0] S32x49x32.size inbx).emb x) := by
  obtain ⟨tb, i, d, rfl⟩ : ∃ (tb : Fin 32) (i : Fin 49) (d : Fin 32), x = ix3 tb i d := ⟨x 0, x 1, x 2, eq_ix3 x⟩
  rw [headV_apply o ho]
  have hd : d.val < 32 := d.isLt
  have hemb : (Rect.unit (s := S32x49x256) ![0, 0, c0] S32x49x32.size inbx).emb (ix3 tb i d)
      = ix3 tb i (⟨c0 + d.val, by omega⟩ : Fin 256) := funext fun a => Fin.ext (by
    match a with
    | ⟨0, _⟩ => show 0 + 1 * tb.val = tb.val; omega
    | ⟨1, _⟩ => show 0 + 1 * i.val = i.val; omega
    | ⟨2, _⟩ => show c0 + 1 * d.val = c0 + d.val; omega)
  rw [hemb]
  show _ = blockAt x0 x1 x2 tb i (⟨c0 + d.val, by omega⟩ : Fin 256)
  unfold blockAt
  have hh : headOf (⟨c0 + d.val, by omega⟩ : Fin 256) = (⟨o, ho⟩ : Fin 8) := Fin.ext (by show (c0 + d.val) / 32 = o; omega)
  have hl : laneOf (⟨c0 + d.val, by omega⟩ : Fin 256) = d := Fin.ext (by show (c0 + d.val) % 32 = d.val; omega)
  rw [hh, hl]
  refine headOut_congr (fun i' d' => ?_) (fun i' j' => ?_) (fun i' j' => ?_) i d
  · rw [show View.ld x0 Gen.r0_0 = x0 from View.ld_unit_zero hz3 _ x0]
    exact split_apply x0 tb i' (⟨o, ho⟩ : Fin 8) d'
  · show x1 ((Rect.unit (s := S8x49x49) ![o, 0, 0] S1x49x49.size inbb).idx (ix3 (0 : Fin 1) i' j')) = x1 (ix3 (⟨o, ho⟩ : Fin 8) i' j')
    exact congrArg x1 (funext fun a => Fin.ext (by
      match a with
      | ⟨0, _⟩ => show o + 1 * 0 = o; omega
      | ⟨1, _⟩ => show 0 + 1 * i'.val = i'.val; omega
      | ⟨2, _⟩ => show 0 + 1 * j'.val = j'.val; omega))
  · rw [show View.ld x2 Gen.r0_1 = x2 from View.ld_unit_zero hz3 _ x2]

/-- The output block after the body is the block function of the three input blocks. -/
theorem out0_3_eq (x0 : Vec Ideal S32x49x256 .f32) (x1 : Vec Ideal S8x49x49 .f32) (x2 : Vec Ideal S32x49x49 .f32) :
    Gen.out0_3 x0 x1 x2 = blockAttn x0 x1 x2 := by
  funext y
  unfold Gen.out0_3
  refine View.canon_apply_of_pieces (blockAttn x0 x1 x2) _ (fun p hp x => ?_) y (Gen.cover0_3 _ _ _ _ _ _ _ _ y)
  simp only [List.mem_cons, List.not_mem_nil, or_false] at hp
  rcases hp with rfl | rfl | rfl | rfl | rfl | rfl | rfl | rfl
  · exact (congrFun (head7_eq _ _ _) x).trans (slab_eq 7 (by decide) 224 rfl slices_S32x49x8x32_o0_0_7_0_S32x49x1x32 inb_S32x49x256_S32x49x32_0_0_224 inb_S8x49x49_S1x49x49_7_0_0 x0 x1 x2 x)
  · exact (congrFun (head6_eq _ _ _) x).trans (slab_eq 6 (by decide) 192 rfl slices_S32x49x8x32_o0_0_6_0_S32x49x1x32 inb_S32x49x256_S32x49x32_0_0_192 inb_S8x49x49_S1x49x49_6_0_0 x0 x1 x2 x)
  · exact (congrFun (head5_eq _ _ _) x).trans (slab_eq 5 (by decide) 160 rfl slices_S32x49x8x32_o0_0_5_0_S32x49x1x32 inb_S32x49x256_S32x49x32_0_0_160 inb_S8x49x49_S1x49x49_5_0_0 x0 x1 x2 x)
  · exact (congrFun (head4_eq _ _ _) x).trans (slab_eq 4 (by decide) 128 rfl slices_S32x49x8x32_o0_0_4_0_S32x49x1x32 inb_S32x49x256_S32x49x32_0_0_128 inb_S8x49x49_S1x49x49_4_0_0 x0 x1 x2 x)
  · exact (congrFun (head3_eq _ _ _) x).trans (slab_eq 3 (by decide) 96 rfl slices_S32x49x8x32_o0_0_3_0_S32x49x1x32 inb_S32x49x256_S32x49x32_0_0_96 inb_S8x49x49_S1x49x49_3_0_0 x0 x1 x2 x)
  · exact (congrFun (head2_eq _ _ _) x).trans (slab_eq 2 (by decide) 64 rfl slices_S32x49x8x32_o0_0_2_0_S32x49x1x32 inb_S32x49x256_S32x49x32_0_0_64 inb_S8x49x49_S1x49x49_2_0_0 x0 x1 x2 x)
  · exact (congrFun (head1_eq _ _ _) x).trans (slab_eq 1 (by decide) 32 rfl slices_S32x49x8x32_o0_0_1_0_S32x49x1x32 inb_S32x49x256_S32x49x32_0_0_32 inb_S8x49x49_S1x49x49_1_0_0 x0 x1 x2 x)
  · exact (congrFun (head0_eq _ _ _) x).trans (slab_eq 0 (by decide) 0 rfl slices_S32x49x8x32_o0_0_0_0_S32x49x1x32 inb_S32x49x256_S32x49x32_0_0_0 inb_S8x49x49_S1x49x49_0_0_0 x0 x1 x2 x)

end Cert.KernelIdeal.Block

end
-- ==== Proof.KernelValue.lean ====
/-
  The kernel's result array after the run, as ONE function of the arrays the region finds.

  Grid point `t` (of 128) fetches window-batches `32·t … 32·t + 31` of `x`, the whole bias table, and mask rows
  `32·(t mod 2) … 32·(t mod 2) + 31`, and writes back window-batches `32·t … 32·t + 31` of the result. Since
  `(32·t + s) mod 64 = 32·(t mod 2) + s` for `s < 32`, the block it writes is the block of the attention function of the
  whole arrays; the 128 blocks tile the result, so the result array IS that function.
-/
import proofs.«110194_j26508538151573_1_alg».proof.Proof.BlockValue
import proofs.«110194_j26508538151573_1_alg».proof.Proof.Gen.KernelIdeal.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.WindowAttention Cert.KernelIdeal.Block

variable (m : (ℓ : Loc nD τ sig) → Buf (Elt Ideal) ℓ) (ρ : Dev nD → PrngReg)

/-- The block function of three blocks that are restrictions of whole arrays is the attention function of the arrays. -/
theorem blockAttn_eq_attn (X : S4096x49x256.Idx → EReal) (Bv : S8x49x49.Idx → EReal) (Mv : S64x49x49.Idx → EReal)
    (x0 : Vec Ideal S32x49x256 .f32) (x1 : Vec Ideal S8x49x49 .f32) (x2 : Vec Ideal S32x49x49 .f32)
    (y : S32x49x256.Idx) (z : S4096x49x256.Idx) (tb : Fin 32) (i : Fin 49) (cc : Fin 256) (b : Fin 4096)
    (hy : y = ix3 tb i cc) (hz : z = ix3 b i cc)
    (hx0 : ∀ (i' : Fin 49) (c' : Fin 256), x0 (ix3 tb i' c') = X (ix3 b i' c'))
    (hx1 : ∀ (h : Fin 8) (i' j' : Fin 49), x1 (ix3 h i' j') = Bv (ix3 h i' j'))
    (hx2 : ∀ (i' j' : Fin 49), x2 (ix3 tb i' j') = Mv (ix3 (winOf b) i' j')) :
    blockAttn x0 x1 x2 y = attn X Bv Mv z := by
  subst hy hz
  show blockAt x0 x1 x2 tb i cc = attnAt X Bv Mv b i cc
  unfold blockAt attnAt
  exact headOut_congr (fun i' d' => hx0 i' _) (fun i' j' => hx1 _ i' j') (fun i' j' => hx2 i' j') i (laneOf cc)

/-- The printed index maps, decided over the 128 grid points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val % 2 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Every block of window-batches is some point's. -/
theorem idx_onto : ∀ q : Fin 128, ∃ t : Fin cfg0.N, t.val = q.val :=
  (by decide +kernel : ∀ q : Fin 128, ∃ t : Fin grid0.N, t.val = q.val)

/-- WHAT POINT `t` WRITES BACK is block `t` of the attention function of the arrays as the region finds them. -/
theorem flushed_eq (c : Dev nD) (t : Fin cfg0.N) :
    (dats m 0 c).flushed 3 t
      = ((cfg0.win 3).blk t).view.read (Elt Ideal) (attn (V m c main_arg0) (V m c main_v9) (V m c main_arg2)) := by
  rw [Value.flushed3, out0_3_eq]
  obtain ⟨e00, e01, e02, e10, e11, e12, e20, e21, e22, e30, e31, e32⟩ := idx_facts t
  have ht : t.val < 128 := lt_of_lt_of_eq t.isLt N_0
  funext j
  have hj0 : (j 0).val < 32 := (j 0).isLt
  have hj1 : (j 1).val < 49 := (j 1).isLt
  have hj2 : (j 2).val < 256 := (j 2).isLt
  show blockAttn (iblk m c 0 t) (iblk m c 1 t) (iblk m c 2 t) j
      = attn (V m c main_arg0) (V m c main_v9) (V m c main_arg2) (((cfg0.win 3).blk t).view.emb j)
  refine blockAttn_eq_attn _ _ _ _ _ _ j _ (j 0) (j 1) (j 2) (⟨t.val * 32 + (j 0).val, by omega⟩ : Fin 4096) (eq_ix3 j) ?_ ?_ ?_ ?_
  · funext a; apply Fin.ext
    match a with
    | ⟨0, _⟩ => show win0_3.index t (0 : Fin 3) * 32 + 1 * (j 0).val = t.val * 32 + (j 0).val; omega
    | ⟨1, _⟩ => show win0_3.index t (1 : Fin 3) * 49 + 1 * (j 1).val = (j 1).val; omega
    | ⟨2, _⟩ => show win0_3.index t (2 : Fin 3) * 256 + 1 * (j 2).val = (j 2).val; omega
  · intro i' c'
    show V m c main_arg0 (((cfg0.win 0).blk t).view.emb (ix3 (j 0) i' c')) = V m c main_arg0 _
    refine congrArg (V m c main_arg0) (funext fun a => Fin.ext ?_)
    match a with
    | ⟨0, _⟩ => show win0_0.index t (0 : Fin 3) * 32 + 1 * (j 0).val = t.val * 32 + (j 0).val; omega
    | ⟨1, _⟩ => show win0_0.index t (1 : Fin 3) * 49 + 1 * i'.val = i'.val; omega
    | ⟨2, _⟩ => show win0_0.index t (2 : Fin 3) * 256 + 1 * c'.val = c'.val; omega
  · intro h i' j'
    show V m c main_v9 (((cfg0.win 1).blk t).view.emb (ix3 h i' j')) = V m c main_v9 _
    refine congrArg (V m c main_v9) (funext fun a => Fin.ext ?_)
    match a with
    | ⟨0, _⟩ => show win0_1.index t (0 : Fin 3) * 8 + 1 * h.val = h.val; omega
    | ⟨1, _⟩ => show win0_1.index t (1 : Fin 3) * 49 + 1 * i'.val = i'.val; omega
    | ⟨2, _⟩ => show win0_1.index t (2 : Fin 3) * 49 + 1 * j'.val = j'.val; omega
  · intro i' j'
    show V m c main_arg2 (((cfg0.win 2).blk t).view.emb (ix3 (j 0) i' j')) = V m c main_arg2 _
    refine congrArg (V m c main_arg2) (funext fun a => Fin.ext ?_)
    match a with
    | ⟨0, _⟩ => show win0_2.index t (0 : Fin 3) * 32 + 1 * (j 0).val = (t.val * 32 + (j 0).val) % 64; omega
    | ⟨1, _⟩ => show win0_2.index t (1 : Fin 3) * 49 + 1 * i'.val = i'.val; omega
    | ⟨2, _⟩ => show win0_2.index t (2 : Fin 3) * 49 + 1 * j'.val = j'.val; omega

/-- An index of the result is in point `t`'s block iff each coordinate is in the block's range on its axis. -/
theorem mem_blk (t : Fin cfg0.N) (i : S4096x49x256.Idx) :
    i ∈ ((cfg0.win 3).blk t).view.set ↔ ∀ a : Fin 3, win0_3.index t a * S32x49x256.size a ≤ (i a).val
      ∧ (i a).val < win0_3.index t a * S32x49x256.size a + S32x49x256.size a := by
  show i ∈ ((View.whole main_v10).slice (win0_3.rect t)).set ↔ _
  rw [View.set_slice_whole, Rect.mem_set_unit]
  exact Iff.rfl

/-- The 128 blocks cover the result: window-batch `r` is in the block of point `r / 32`. -/
theorem cover (i : S4096x49x256.Idx) : ∃ t : Fin cfg0.N, (cfg0.win 3).flush t = true ∧ i ∈ ((cfg0.win 3).blk t).view.set := by
  have hi0 : (i 0).val < 4096 := (i 0).isLt
  have hi1 : (i 1).val < 49 := (i 1).isLt
  have hi2 : (i 2).val < 256 := (i 2).isLt
  obtain ⟨t, ht⟩ := idx_onto ⟨(i 0).val / 32, by omega⟩
  have ht' : t.val = (i 0).val / 32 := ht
  obtain ⟨e00, e01, e02, e10, e11, e12, e20, e21, e22, e30, e31, e32⟩ := idx_facts t
  refine ⟨t, flush0_3 t, ?_⟩
  rw [mem_blk]
  intro a
  match a with
  | ⟨0, _⟩ => show win0_3.index t (0 : Fin 3) * 32 ≤ (i 0).val ∧ (i 0).val < win0_3.index t (0 : Fin 3) * 32 + 32; omega
  | ⟨1, _⟩ => show win0_3.index t (1 : Fin 3) * 49 ≤ (i 1).val ∧ (i 1).val < win0_3.index t (1 : Fin 3) * 49 + 49; omega
  | ⟨2, _⟩ => show win0_3.index t (2 : Fin 3) * 256 ≤ (i 2).val ∧ (i 2).val < win0_3.index t (2 : Fin 3) * 256 + 256; omega

/-- THE RESULT ARRAY after the run is the attention function of the arrays as the region finds them. -/
theorem final (c : Dev nD) :
    (dats m 0 c).arrAt 3 cfg0.N = attn (V m c main_arg0) (V m c main_v9) (V m c main_arg2) :=
  (dats m 0 c).arrAt_eq_of_cover 3 _ (fun t _ => flushed_eq m c t) cover

/-- The run re-posted: the result at the attention function of `x`, of the bias table the host operations before
    the region leave, and of the mask; the arguments unchanged. -/
theorem run : θ_run defs (onTc (τ := τ) (main (F := Ideal))) ⟨m, fun _ => 0, ρ⟩ fun r => ∀ c : Dev nD,
      r.2.mem ((c : Thread nD τ).loc main_v10)
        = attn (m ((c : Thread nD τ).loc main_arg0)) (V m c main_v9) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (by rw [final m c, V_main_arg0, V_main_arg2]), (h c).2⟩)
    (Value.run_blocks m ρ)

end Cert.KernelIdeal.KValue

end
-- ==== Proof.RefValue.lean ====
/-
  The reference program's result, read one operation at a time, IS the windowed self-attention of the specification.

  For a window-batch `b` and a head `h` the reference splits the 256 channels of `x` into 8 heads of 32 lanes and moves the
  head axis outward, so that element (b, h, j, d) of the copy is `x[b, j, 32·h + d]`; the logits are the contraction of the
  scaled copy with the copy over the 32 lanes, plus the bias table broadcast over the window-batches, plus the mask added
  through a split of the window-batch axis into 64 × 64 (window-batch `b` reads mask row `b mod 64`); the softmax over the
  last axis is the row maximum folded from `-∞`, the shifted exponentials, their sum from the zero word and the quotient;
  the probabilities are contracted with the copy over the 49 tokens and the heads are merged back into 256 channels.
  Each stage below is the reference's value at an index written by its coordinates; the index maps of the reshapes are
  quotients and remainders at literal extents, settled by linear arithmetic. The gathered bias table is kept as it is.
-/
import proofs.«110194_j26508538151573_1_alg».proof.Proof.Gen.ReferenceIdeal.Read
import proofs.«110194_j26508538151573_1_alg».proof.Proof.Attention
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx Cert.WindowAttention

variable [Facts]

/-- The head-split, transposed copy of `x`: window-batch `b`, head `h`, token `j`, lane `d` is channel `32·h + d` of token `j`. -/
theorem v1_at (x0 : (⟨S4096x49x256, .f32⟩ : BufTy).Contents (Elt Ideal)) (b : Fin 4096) (h : Fin 8) (j : Fin 49) (d : Fin 32) :
    Read.val_main_v1 (F := Ideal) x0 (ix4 b h j d) = x0 (ix3 b j (chan h d)) := by
  rw [Read.val_main_v1_apply, Read.val_main_v0_apply]
  refine congrArg x0 (funext fun a => Fin.ext ?_)
  have hb := b.isLt; have hh := h.isLt; have hj := j.isLt; have hd := d.isLt
  match a with
  | ⟨0, _⟩ => show (((b.val * 49 + j.val) * 8 + h.val) * 32 + d.val) / 12544 = b.val; omega
  | ⟨1, _⟩ => show (((b.val * 49 + j.val) * 8 + h.val) * 32 + d.val) / 256 % 49 = j.val; omega
  | ⟨2, _⟩ => show (((b.val * 49 + j.val) * 8 + h.val) * 32 + d.val) % 256 = h.val * 32 + d.val; omega

/-- The scaled copy: the same element times the query scale. -/
theorem v3_at (x0 : (⟨S4096x49x256, .f32⟩ : BufTy).Contents (Elt Ideal)) (b : Fin 4096) (h : Fin 8) (i : Fin 49) (d : Fin 32) :
    Read.val_main_v3 (F := Ideal) x0 (ix4 b h i d) = x0 (ix3 b i (chan h d)) * qScale := by
  rw [Read.val_main_v3_apply, v1_at, Read.val_main_v2_apply, Read.val_main_cst_apply]
  rfl

/-- Query rows against key rows: the contraction over the 32 lanes of a head. -/
theorem v4_at (x0 : (⟨S4096x49x256, .f32⟩ : BufTy).Contents (Elt Ideal)) (b : Fin 4096) (h : Fin 8) (i j : Fin 49) :
    Read.val_main_v4 (F := Ideal) x0 (ix4 b h i j)
      = ∑ d : Fin 32, (x0 (ix3 b i (chan h d)) * qScale) * x0 (ix3 b j (chan h d)) := by
  rw [Read.val_main_v4_apply]
  refine Finset.sum_congr rfl fun d _ => ?_
  have el : Read.lidx_main_v4 (ix4 b h i j) d = ix4 b h i d :=
    funext fun a => Fin.ext (by match a with | ⟨0, _⟩ => rfl | ⟨1, _⟩ => rfl | ⟨2, _⟩ => rfl | ⟨3, _⟩ => rfl)
  have er : Read.ridx_main_v4 (ix4 b h i j) d = ix4 b h j d :=
    funext fun a => Fin.ext (by match a with | ⟨0, _⟩ => rfl | ⟨1, _⟩ => rfl | ⟨2, _⟩ => rfl | ⟨3, _⟩ => rfl)
  rw [el, er, v3_at, v1_at]

/-- The bias table broadcast over the window-batches. -/
theorem v16_at (x1 : (⟨S169x8, .f32⟩ : BufTy).Contents (Elt Ideal)) (x3 : (⟨S49x49, .i32⟩ : BufTy).Contents (Elt Ideal))
    (b : Fin 4096) (h : Fin 8) (i j : Fin 49) :
    Read.val_main_v16 (F := Ideal) x1 x3 (ix4 b h i j) = Read.val_main_v14 (F := Ideal) x1 x3 (ix3 h i j) := by
  rw [Read.val_main_v16_apply, Read.val_main_v15_apply]
  exact congrArg (Read.val_main_v14 (F := Ideal) x1 x3)
    (funext fun a => Fin.ext (by match a with | ⟨0, _⟩ => rfl | ⟨1, _⟩ => rfl | ⟨2, _⟩ => rfl))

/-- Splitting the window-batch axis into 64 × 64 and merging it back is the identity on indices. -/
theorem idx18_22 (b : Fin 4096) (h : Fin 8) (i j : Fin 49) :
    Read.idx_main_v18 (Read.idx_main_v22 (ix4 b h i j)) = ix4 b h i j := by
  refine funext fun a => Fin.ext ?_
  have hb := b.isLt; have hh := h.isLt; have hi := i.isLt; have hj := j.isLt
  match a with
  | ⟨0, _⟩ => show ((((((((b.val * 8 + h.val) * 49 + i.val) * 49 + j.val) / 1229312) * 64 + (((b.val * 8 + h.val) * 49 + i.val) * 49 + j.val) / 19208 % 64) * 8 + (((b.val * 8 + h.val) * 49 + i.val) * 49 + j.val) / 2401 % 8) * 49 + (((b.val * 8 + h.val) * 49 + i.val) * 49 + j.val) / 49 % 49) * 49 + (((b.val * 8 + h.val) * 49 + i.val) * 49 + j.val) % 49) / 19208 = b.val; omega
  | ⟨1, _⟩ => show ((((((((b.val * 8 + h.val) * 49 + i.val) * 49 + j.val) / 1229312) * 64 + (((b.val * 8 + h.val) * 49 + i.val) * 49 + j.val) / 19208 % 64) * 8 + (((b.val * 8 + h.val) * 49 + i.val) * 49 + j.val) / 2401 % 8) * 49 + (((b.val * 8 + h.val) * 49 + i.val) * 49 + j.val) / 49 % 49) * 49 + (((b.val * 8 + h.val) * 49 + i.val) * 49 + j.val) % 49) / 2401 % 8 = h.val; omega
  | ⟨2, _⟩ => show ((((((((b.val * 8 + h.val) * 49 + i.val) * 49 + j.val) / 1229312) * 64 + (((b.val * 8 + h.val) * 49 + i.val) * 49 + j.val) / 19208 % 64) * 8 + (((b.val * 8 + h.val) * 49 + i.val) * 49 + j.val) / 2401 % 8) * 49 + (((b.val * 8 + h.val) * 49 + i.val) * 49 + j.val) / 49 % 49) * 49 + (((b.val * 8 + h.val) * 49 + i.val) * 49 + j.val) % 49) / 49 % 49 = i.val; omega
  | ⟨3, _⟩ => show ((((((((b.val * 8 + h.val) * 49 + i.val) * 49 + j.val) / 1229312) * 64 + (((b.val * 8 + h.val) * 49 + i.val) * 49 + j.val) / 19208 % 64) * 8 + (((b.val * 8 + h.val) * 49 + i.val) * 49 + j.val) / 2401 % 8) * 49 + (((b.val * 8 + h.val) * 49 + i.val) * 49 + j.val) / 49 % 49) * 49 + (((b.val * 8 + h.val) * 49 + i.val) * 49 + j.val) % 49) % 49 = j.val; omega

/-- The mask row read through the 64 × 64 split: window-batch `b` reads row `b mod 64`. -/
theorem idx19_20_22 (b : Fin 4096) (h : Fin 8) (i j : Fin 49) :
    Read.idx_main_v19 (Read.idx_main_v20 (Read.idx_main_v22 (ix4 b h i j))) = ix3 (winOf b) i j := by
  refine funext fun a => Fin.ext ?_
  have hb := b.isLt; have hh := h.isLt; have hi := i.isLt; have hj := j.isLt
  match a with
  | ⟨0, _⟩ => show (((b.val * 8 + h.val) * 49 + i.val) * 49 + j.val) / 19208 % 64 = b.val % 64; omega
  | ⟨1, _⟩ => show (((b.val * 8 + h.val) * 49 + i.val) * 49 + j.val) / 49 % 49 = i.val; omega
  | ⟨2, _⟩ => show (((b.val * 8 + h.val) * 49 + i.val) * 49 + j.val) % 49 = j.val; omega

/-- The three tables of one head `h` of one window-batch `b`: its 49 × 32 rows of `x`, its bias and its mask. -/
abbrev rows (x0 : (⟨S4096x49x256, .f32⟩ : BufTy).Contents (Elt Ideal)) (b : Fin 4096) (h : Fin 8) : Fin 49 → Fin 32 → EReal :=
  fun i d => x0 (ix3 b i (chan h d))
abbrev biasOf (bias : (⟨S8x49x49, .f32⟩ : BufTy).Contents (Elt Ideal)) (h : Fin 8) : Fin 49 → Fin 49 → EReal :=
  fun i j => bias (ix3 h i j)
abbrev maskOf (x2 : (⟨S64x49x49, .f32⟩ : BufTy).Contents (Elt Ideal)) (b : Fin 4096) : Fin 49 → Fin 49 → EReal :=
  fun i j => x2 (ix3 (winOf b) i j)

/-- The logits: contraction plus bias, plus the mask added through the 64 × 64 split. -/
theorem v22_at (x0 : (⟨S4096x49x256, .f32⟩ : BufTy).Contents (Elt Ideal)) (x1 : (⟨S169x8, .f32⟩ : BufTy).Contents (Elt Ideal)) (x2 : (⟨S64x49x49, .f32⟩ : BufTy).Contents (Elt Ideal)) (x3 : (⟨S49x49, .i32⟩ : BufTy).Contents (Elt Ideal))
    (b : Fin 4096) (h : Fin 8) (i j : Fin 49) :
    Read.val_main_v22 (F := Ideal) x0 x1 x2 x3 (ix4 b h i j)
      = logit (rows x0 b h) (biasOf (Read.val_main_v14 (F := Ideal) x1 x3) h) (maskOf x2 b) i j := by
  rw [Read.val_main_v22_apply, Read.val_main_v21_apply, Read.val_main_v18_apply, Read.val_main_v20_apply,
    Read.val_main_v19_apply, idx18_22, idx19_20_22, Read.val_main_v17_apply, v4_at, v16_at]
  rfl

/-- A row of logits. -/
theorem v22_row (x0 : (⟨S4096x49x256, .f32⟩ : BufTy).Contents (Elt Ideal)) (x1 : (⟨S169x8, .f32⟩ : BufTy).Contents (Elt Ideal)) (x2 : (⟨S64x49x49, .f32⟩ : BufTy).Contents (Elt Ideal)) (x3 : (⟨S49x49, .i32⟩ : BufTy).Contents (Elt Ideal))
    (b : Fin 4096) (h : Fin 8) (i : Fin 49) :
    (fun j => Read.val_main_v22 (F := Ideal) x0 x1 x2 x3 (ix4 b h i j))
      = logit (rows x0 b h) (biasOf (Read.val_main_v14 (F := Ideal) x1 x3) h) (maskOf x2 b) i :=
  funext fun j => v22_at x0 x1 x2 x3 b h i j

/-- The reduce with a maximum body over the last axis is the fold of `max` from `-∞` along the row. -/
theorem v23_at (x0 : (⟨S4096x49x256, .f32⟩ : BufTy).Contents (Elt Ideal)) (x1 : (⟨S169x8, .f32⟩ : BufTy).Contents (Elt Ideal)) (x2 : (⟨S64x49x49, .f32⟩ : BufTy).Contents (Elt Ideal)) (x3 : (⟨S49x49, .i32⟩ : BufTy).Contents (Elt Ideal))
    (b : Fin 4096) (h : Fin 8) (i : Fin 49) :
    Read.val_main_v23 (F := Ideal) x0 x1 x2 x3 (ix3 b h i)
      = (Finset.univ : Finset (Fin 49)).fold max negInf (fun j => Read.val_main_v22 (F := Ideal) x0 x1 x2 x3 (ix4 b h i j)) := by
  unfold Read.val_main_v23
  generalize Read.val_main_v22 (F := Ideal) x0 x1 x2 x3 = y
  have hR : S4096x8x49x49.Reduces [3] S4096x8x49 := by decide
  refine (Host.reduce_eq_fold_single (FloatOps.maximumf (F := Ideal) (φ := .f32)) y (Read.val_main_cst_1 (F := Ideal))
    Facts₀.reducesTo_S4096x8x49x49_S4096x8x49_d3 hR Facts₀.h_S_ (ix3 b h i)).trans ?_
  have e : y ∘ hR.lift (ix3 b h i) = fun j : Fin 49 => y (ix4 b h i j) :=
    funext fun j => congrArg y (funext fun a => Fin.ext (by
      match a with | ⟨0, _⟩ => rfl | ⟨1, _⟩ => rfl | ⟨2, _⟩ => rfl | ⟨3, _⟩ => rfl))
  rw [e]
  rfl

/-- The row maximum, compared once more with `-∞`. -/
theorem v25_at (x0 : (⟨S4096x49x256, .f32⟩ : BufTy).Contents (Elt Ideal)) (x1 : (⟨S169x8, .f32⟩ : BufTy).Contents (Elt Ideal)) (x2 : (⟨S64x49x49, .f32⟩ : BufTy).Contents (Elt Ideal)) (x3 : (⟨S49x49, .i32⟩ : BufTy).Contents (Elt Ideal))
    (b : Fin 4096) (h : Fin 8) (i : Fin 49) :
    Read.val_main_v25 (F := Ideal) x0 x1 x2 x3 (ix3 b h i) = rowMax (logit (rows x0 b h) (biasOf (Read.val_main_v14 (F := Ideal) x1 x3) h) (maskOf x2 b) i) := by
  rw [Read.val_main_v25_apply, Read.val_main_v24_apply, Read.val_main_cst_2_apply, v23_at, v22_row]
  rfl

/-- The shifted exponentials. -/
theorem v29_at (x0 : (⟨S4096x49x256, .f32⟩ : BufTy).Contents (Elt Ideal)) (x1 : (⟨S169x8, .f32⟩ : BufTy).Contents (Elt Ideal)) (x2 : (⟨S64x49x49, .f32⟩ : BufTy).Contents (Elt Ideal)) (x3 : (⟨S49x49, .i32⟩ : BufTy).Contents (Elt Ideal))
    (b : Fin 4096) (h : Fin 8) (i j : Fin 49) :
    Read.val_main_v29 (F := Ideal) x0 x1 x2 x3 (ix4 b h i j) = expo (rows x0 b h) (biasOf (Read.val_main_v14 (F := Ideal) x1 x3) h) (maskOf x2 b) i j := by
  have e : Read.idx_main_v26 (Read.idx_main_v27 (ix4 b h i j)) = ix3 b h i :=
    funext fun a => Fin.ext (by match a with | ⟨0, _⟩ => rfl | ⟨1, _⟩ => rfl | ⟨2, _⟩ => rfl)
  rw [Read.val_main_v29_apply, Read.val_main_v28_apply, Read.val_main_v27_apply, Read.val_main_v26_apply, e, v25_at, v22_at]
  rfl

/-- The normaliser: the reduce with an add body from the zero word is the row's sum. -/
theorem v30_at (x0 : (⟨S4096x49x256, .f32⟩ : BufTy).Contents (Elt Ideal)) (x1 : (⟨S169x8, .f32⟩ : BufTy).Contents (Elt Ideal)) (x2 : (⟨S64x49x49, .f32⟩ : BufTy).Contents (Elt Ideal)) (x3 : (⟨S49x49, .i32⟩ : BufTy).Contents (Elt Ideal))
    (b : Fin 4096) (h : Fin 8) (i : Fin 49) :
    Read.val_main_v30 (F := Ideal) x0 x1 x2 x3 (ix3 b h i) = denom (rows x0 b h) (biasOf (Read.val_main_v14 (F := Ideal) x1 x3) h) (maskOf x2 b) i := by
  rw [Read.val_main_v30_apply, Read.val_main_cst_3_apply]
  have z : FloatOps.ofBits (F := Ideal) .f32 0x00000000#32 = 0 := Ideal.ofBits_zero_f32
  rw [z, zero_add]
  refine Finset.sum_congr rfl fun k _ => ?_
  have e : Read.idx_main_v30 (ix3 b h i) k = ix4 b h i k :=
    funext fun a => Fin.ext (by match a with | ⟨0, _⟩ => rfl | ⟨1, _⟩ => rfl | ⟨2, _⟩ => rfl | ⟨3, _⟩ => rfl)
  rw [e, v29_at]

/-- The probabilities. -/
theorem v33_at (x0 : (⟨S4096x49x256, .f32⟩ : BufTy).Contents (Elt Ideal)) (x1 : (⟨S169x8, .f32⟩ : BufTy).Contents (Elt Ideal)) (x2 : (⟨S64x49x49, .f32⟩ : BufTy).Contents (Elt Ideal)) (x3 : (⟨S49x49, .i32⟩ : BufTy).Contents (Elt Ideal))
    (b : Fin 4096) (h : Fin 8) (i j : Fin 49) :
    Read.val_main_v33 (F := Ideal) x0 x1 x2 x3 (ix4 b h i j) = prob (rows x0 b h) (biasOf (Read.val_main_v14 (F := Ideal) x1 x3) h) (maskOf x2 b) i j := by
  have e : Read.idx_main_v31 (Read.idx_main_v32 (ix4 b h i j)) = ix3 b h i :=
    funext fun a => Fin.ext (by match a with | ⟨0, _⟩ => rfl | ⟨1, _⟩ => rfl | ⟨2, _⟩ => rfl)
  rw [Read.val_main_v33_apply, Read.val_main_v32_apply, Read.val_main_v31_apply, e, v30_at, v29_at]
  rfl

/-- The head's output: probabilities against the value rows. -/
theorem v34_at (x0 : (⟨S4096x49x256, .f32⟩ : BufTy).Contents (Elt Ideal)) (x1 : (⟨S169x8, .f32⟩ : BufTy).Contents (Elt Ideal)) (x2 : (⟨S64x49x49, .f32⟩ : BufTy).Contents (Elt Ideal)) (x3 : (⟨S49x49, .i32⟩ : BufTy).Contents (Elt Ideal))
    (b : Fin 4096) (h : Fin 8) (i : Fin 49) (d : Fin 32) :
    Read.val_main_v34 (F := Ideal) x0 x1 x2 x3 (ix4 b h i d) = headOut (rows x0 b h) (biasOf (Read.val_main_v14 (F := Ideal) x1 x3) h) (maskOf x2 b) i d := by
  rw [Read.val_main_v34_apply]
  refine Finset.sum_congr rfl fun k _ => ?_
  have el : Read.lidx_main_v34 (ix4 b h i d) k = ix4 b h i k :=
    funext fun a => Fin.ext (by match a with | ⟨0, _⟩ => rfl | ⟨1, _⟩ => rfl | ⟨2, _⟩ => rfl | ⟨3, _⟩ => rfl)
  have er : Read.ridx_main_v34 (ix4 b h i d) k = ix4 b h k d :=
    funext fun a => Fin.ext (by match a with | ⟨0, _⟩ => rfl | ⟨1, _⟩ => rfl | ⟨2, _⟩ => rfl | ⟨3, _⟩ => rfl)
  rw [el, er, v33_at, v1_at]

/-- Merging the heads back: channel `c` of the result is lane `c mod 32` of head `c / 32`. -/
theorem v36_at (x0 : (⟨S4096x49x256, .f32⟩ : BufTy).Contents (Elt Ideal)) (x1 : (⟨S169x8, .f32⟩ : BufTy).Contents (Elt Ideal)) (x2 : (⟨S64x49x49, .f32⟩ : BufTy).Contents (Elt Ideal)) (x3 : (⟨S49x49, .i32⟩ : BufTy).Contents (Elt Ideal))
    (b : Fin 4096) (i : Fin 49) (c : Fin 256) :
    Read.val_main_v36 (F := Ideal) x0 x1 x2 x3 (ix3 b i c)
      = Read.val_main_v34 (F := Ideal) x0 x1 x2 x3 (ix4 b (headOf c) i (laneOf c)) := by
  rw [Read.val_main_v36_apply, Read.val_main_v35_apply]
  refine congrArg (Read.val_main_v34 (F := Ideal) x0 x1 x2 x3) (funext fun a => Fin.ext ?_)
  have hb := b.isLt; have hi := i.isLt; have hc := c.isLt
  match a with
  | ⟨0, _⟩ => show ((b.val * 49 + i.val) * 256 + c.val) / 12544 = b.val; omega
  | ⟨1, _⟩ => show ((b.val * 49 + i.val) * 256 + c.val) / 32 % 8 = c.val / 32; omega
  | ⟨2, _⟩ => show ((b.val * 49 + i.val) * 256 + c.val) / 256 % 49 = i.val; omega
  | ⟨3, _⟩ => show ((b.val * 49 + i.val) * 256 + c.val) % 32 = c.val % 32; omega

/-- The reference's result is the windowed attention of `x`, the gathered bias table and the mask. -/
theorem ref_eq (x0 : (⟨S4096x49x256, .f32⟩ : BufTy).Contents (Elt Ideal)) (x1 : (⟨S169x8, .f32⟩ : BufTy).Contents (Elt Ideal)) (x2 : (⟨S64x49x49, .f32⟩ : BufTy).Contents (Elt Ideal)) (x3 : (⟨S49x49, .i32⟩ : BufTy).Contents (Elt Ideal)) :
    Read.val_main_v36 (F := Ideal) x0 x1 x2 x3 = Cert.WindowAttention.attn x0 (Read.val_main_v14 (F := Ideal) x1 x3) x2 := by
  funext y
  obtain ⟨b, i, c, rfl⟩ : ∃ (b : Fin 4096) (i : Fin 49) (c : Fin 256), y = ix3 b i c := ⟨y 0, y 1, y 2, eq_ix3 y⟩
  rw [v36_at, v34_at, attn_ix3]
  rfl

end Cert.ReferenceIdeal.RefValue

end
-- ==== Proof.BiasTable.lean ====
/-
  The bias table the kernel's program hands to the region is the reference's.

  Both programs gather the rows of the `169 × 8` table named by the `49 × 49` index array (an index below zero moved
  up by 169), view the `2401 × 8` result as `49 × 49 × 8` and move the head axis to the front: the same operations of the
  same two arguments, so the same `8 × 49 × 49` table — whatever the index array holds.
-/
import proofs.«110194_j26508538151573_1_alg».proof.Proof.Gen.KernelIdeal.Frame
import proofs.«110194_j26508538151573_1_alg».proof.Proof.Gen.ReferenceIdeal.Read
import Idealize.ShloMosaic.Lib.StableHlo.Run

noncomputable section

namespace Cert.BiasTable

open Idealize.ShloMosaic Idealize.ShloMosaic.TcCoe Idealize.SL.Sem Idealize.ShloMosaic.StableHlo

/-- The table the region finds in `main_v9` is the reference's gathered, re-viewed and transposed table of the
    launch contents of the bias and index arguments. -/
theorem region_bias (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v9 : Cert.KernelIdeal.S8x49x49.Idx → EReal)
      = Cert.ReferenceIdeal.Read.val_main_v14 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg3)) := by
  dsimp only [Cert.KernelIdeal.Gen.V, Cert.KernelIdeal.Gen.hostOps0]
  after_results
  rfl

end Cert.BiasTable

end
-- ==== Proof.lean ====
/-
  The kernel computes, window-batch by window-batch and head by head, a softmax attention of the rows of `x` against
  themselves with a gathered relative-position bias and an additive window mask; the reference computes the same with
  whole-array operations. Over the extended reals both results are ONE function of the arguments
  (`Cert.WindowAttention.attn`): the kernel's by reading its output blocks as restrictions of that function and tiling
  the result with them, the reference's by reading its operations one at a time at an index. The two sums over channels
  and over keys are the same sums, the row maxima the same folds, the bias table the same gathered table; no law of
  arithmetic beyond that is used, so the inputs' finiteness is never opened.
  The three frames are the programs' runs with the result forgotten; the idealization rewrote nothing.
-/
import proofs.«110194_j26508538151573_1_alg».proof.Defs
import proofs.«110194_j26508538151573_1_alg».proof.Proof.Gen.Kernel
import proofs.«110194_j26508538151573_1_alg».proof.Proof.Gen.Kernel.Skeleton
import proofs.«110194_j26508538151573_1_alg».proof.Proof.Gen.Kernel.Launch
import proofs.«110194_j26508538151573_1_alg».proof.Proof.Gen.Kernel.Points
import proofs.«110194_j26508538151573_1_alg».proof.Proof.Gen.Kernel.Frame
import proofs.«110194_j26508538151573_1_alg».proof.Proof.Gen.KernelIdeal
import proofs.«110194_j26508538151573_1_alg».proof.Proof.Gen.KernelIdeal.Skeleton
import proofs.«110194_j26508538151573_1_alg».proof.Proof.Gen.KernelIdeal.Launch
import proofs.«110194_j26508538151573_1_alg».proof.Proof.Gen.KernelIdeal.Points
import proofs.«110194_j26508538151573_1_alg».proof.Proof.Gen.KernelIdeal.Frame
import proofs.«110194_j26508538151573_1_alg».proof.Proof.Gen.ReferenceIdeal
import proofs.«110194_j26508538151573_1_alg».proof.Proof.Gen.Pre_finite_inputs
import proofs.«110194_j26508538151573_1_alg».proof.Proof.Gen.KernelIdeal.Value
import proofs.«110194_j26508538151573_1_alg».proof.Proof.Gen.ReferenceIdeal.Run
import proofs.«110194_j26508538151573_1_alg».proof.Proof.Gen.ReferenceIdeal.Read
import proofs.«110194_j26508538151573_1_alg».proof.Proof.KernelValue
import proofs.«110194_j26508538151573_1_alg».proof.Proof.RefValue
import proofs.«110194_j26508538151573_1_alg».proof.Proof.BiasTable
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the four arguments both programs end with the attention function of `x`, of the
    gathered bias table and of the mask in their result arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.ref_eq, (hagree c).1, (hagree c).2.1,
    (hagree c).2.2.1, (hagree c).2.2.2, Cert.BiasTable.region_bias]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
